-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x40, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x40, .f32⟩
  | .hbm, ⟨75, _⟩ => ⟨S3300000x1, .f32⟩
  | .hbm, ⟨76, _⟩ => ⟨S3300000x40, .f32⟩
  | .hbm, ⟨77, _⟩ => ⟨S3300000x40, .f32⟩
  | .hbm, ⟨78, _⟩ => ⟨S_, .f32⟩
  | .hbm, ⟨79, _⟩ => ⟨S100000x40, .f32⟩
  | .hbm, ⟨80, _⟩ => ⟨S3300000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x40, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x40, .f32⟩
  | 119 => ⟨S3300000x1, .f32⟩
  | 120 => ⟨S3300000x40, .f32⟩
  | 121 => ⟨S3300000x40, .f32⟩
  | 122 => ⟨S_, .f32⟩
  | 123 => ⟨S100000x40, .f32⟩
  | 124 => ⟨S3300000x1, .i32⟩
  | 125 => ⟨S100000x40, .f32⟩
  | 126 => ⟨S1x40, .f32⟩
  | 127 => ⟨S100000x40, .f32⟩
  | _ => ⟨S100000x512, .f32⟩

abbrev hbmTy0_1 (i : Nat) : BufTy := match i % 128 with
  | 0 => ⟨S100000x40, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x40, .f32⟩
  | 8 => ⟨S100000x40, .f32⟩
  | 9 => ⟨S100000x40, .f32⟩
  | 10 => ⟨S_, .f32⟩
  | 11 => ⟨S100000, .f32⟩
  | 12 => ⟨S100000x1, .f32⟩
  | 13 => ⟨S100000x1, .f32⟩
  | 14 => ⟨S100000x40, .f32⟩
  | 15 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel's run with its RESULT named.  @main is nine segments: stretches of host operations and four
  pipelined regions.  The buffer contents at each segment boundary are a fold from the launch memory (host
  stretches apply their operations; a region replaces its arrays by what its write-backs leave), and every
  weakly fair execution ends with every unscoped buffer at the last boundary's contents.  Read at the result
  buffer this gives the result array as the last region's output array; read at the arguments it gives them
  back unchanged.
-/
import proofs.«151575_j70789650972705_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Hand

end
-- ==== Proof.Region1.lean ====
/-
  Region 1 of the idealized kernel: bias and positive part, a row block at a time.
  Each of the twenty grid points reads rows 5000·t … 5000·t + 4999 of the aggregated features and the one-row bias,
  and writes back, entry by entry, max (a (r, q) + b (0, q)) 0.  The blocks tile the 100000 rows, so after the region
  the output array is that function of the two input arrays at every index: the host's `maximum (a + bias broadcast
  down the rows) (0 splat)`.
-/
import proofs.«151575_j70789650972705_1_alg».proof.Proof.Gen.KernelIdeal.Frame
import proofs.«151575_j70789650972705_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The host's spelling of the layer: the rows plus the one-row bias laid along every row, then the maximum with
    the zero splat. -/
def biasRelu (a : FVec Ideal S100000x16 .f32) (b : FVec Ideal S1x16 .f32) : FVec Ideal S100000x16 .f32 :=
  maximumf (addf a (broadcastInDim S100000x16 ![0, 1] Cert.ReferenceIdeal.Facts₀.bcast_S1x16_S100000x16_0_1 b))
    (broadcastInDim S100000x16 ![] Cert.ReferenceIdeal.Facts₀.bcast_S_S100000x16 (constant (F := Ideal) S_ .f32 0x00000000#32))

/-- At (r, q) it is the maximum of a (r, q) + b (0, q) and the zero word's value. -/
theorem biasRelu_apply (a : FVec Ideal S100000x16 .f32) (b : FVec Ideal S1x16 .f32) (r : Fin 100000) (q : Fin 16) :
    biasRelu a b (ix2 r q) = max (a (ix2 r q) + b (ix2 (0 : Fin 1) q)) (FloatOps.ofBits (F := Ideal) .f32 0x00000000#32) := by
  unfold biasRelu
  show max (a (ix2 r q) + broadcastInDim S100000x16 ![0, 1] _ b (ix2 r q)) (broadcastInDim S100000x16 ![] _ (constant (F := Ideal) S_ .f32 0x00000000#32) (ix2 r q)) = _
  rw [broadcastInDim_oneRow_apply]
  rfl

/-- The zero offsets of a whole-block access. -/
theorem hz2 : (![0, 0] : Fin 2 → Nat) = fun _ => 0 := funext fun a => by fin_cases a <;> rfl

/-- The printed index maps over the grid: point t's row block is block t of the rows, the bias window's one block
    is the whole bias. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's stored value at (p, q): the block's entry plus the bias row's, against the zero word's value. -/
theorem pay1_apply (x0 : Vec Ideal S5000x16 .f32) (x1 : Vec Ideal S1x16 .f32) (p : Fin 5000) (q : Fin 16) :
    k1_pay1 (F := Ideal) x0 x1 (ix2 p q) = max (x0 (ix2 p q) + x1 (ix2 (0 : Fin 1) q)) (FloatOps.ofBits (F := Ideal) .f32 0x00000000#32) := by
  unfold k1_pay1
  show max (shapeCast S5000x16 x0 _ (ix2 p q) + broadcastTo S5000x16 (shapeCast S1x16 x1 _) _ (ix2 p q)) _ = _
  rw [shapeCast_self, shapeCast_self]
  rw [broadcastTo_apply x1 _ (ix2 p q) (ix2 (0 : Fin 1) q) (by
    intro a
    match a with
    | ⟨0, _⟩ => rfl
    | ⟨1, _⟩ => rfl)]
  rfl

/-- WHAT POINT t WRITES BACK is block t of the layer's function of the two arrays as the region finds them. -/
theorem flushed1_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero hz2]
  simp only [View.ld_unit_zero (S := S5000x16) hz2, View.ld_unit_zero (S := S1x16) hz2]
  obtain ⟨e0, e1, e2, e3, e4, e5⟩ := idx1 t
  funext j
  obtain ⟨p, q, rfl⟩ : ∃ (p : Fin 5000) (q : Fin 16), j = ix2 p q := ⟨j 0, j 1, eq_ix2 j⟩
  have ht : t.val < 20 := lt_of_lt_of_eq t.isLt N_1
  have hp : p.val < 5000 := p.isLt
  have hemb2 : ((cfg1.win 2).blk t).view.emb (ix2 p q) = ix2 (⟨5000 * t.val + p.val, by omega⟩ : Fin 100000) q := by
    funext a; apply Fin.ext
    match a with
    | ⟨0, _⟩ => show win1_2.index t (0 : Fin 2) * 5000 + 1 * p.val = 5000 * t.val + p.val; rw [e4]; omega
    | ⟨1, _⟩ => show win1_2.index t (1 : Fin 2) * 16 + 1 * q.val = q.val; rw [e5]; omega
  have hemb0 : ((cfg1.win 0).blk t).view.emb (ix2 p q) = ix2 (⟨5000 * t.val + p.val, by omega⟩ : Fin 100000) q := by
    funext a; apply Fin.ext
    match a with
    | ⟨0, _⟩ => show win1_0.index t (0 : Fin 2) * 5000 + 1 * p.val = 5000 * t.val + p.val; rw [e0]; omega
    | ⟨1, _⟩ => show win1_0.index t (1 : Fin 2) * 16 + 1 * q.val = q.val; rw [e1]; omega
  have hemb1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; rw [e2]
    | ⟨1, _⟩ => show win1_1.index t (1 : Fin 2) * 16 + 1 * q.val = q.val; rw [e3]; omega
  show k1_pay1 (iblk1 V c 0 t) (iblk1 V c 1 t) (ix2 p q) = biasRelu (V c main_v43) (V c main_v44) (((cfg1.win 2).blk t).view.emb (ix2 p q))
  refine (pay1_apply _ _ p q).trans ?_
  rw [hemb2, biasRelu_apply]
  have r0 : (iblk1 V c 0 t : S5000x16.Idx → EReal) (ix2 p q) = (V c main_v43 : S100000x16.Idx → EReal) (ix2 (⟨5000 * t.val + p.val, by omega⟩ : Fin 100000) q) := by
    show (V c main_v43 : S100000x16.Idx → EReal) (((cfg1.win 0).blk t).view.emb (ix2 p q)) = _
    rw [hemb0]
  have r1 : (iblk1 V c 1 t : S1x16.Idx → EReal) (ix2 (0 : Fin 1) q) = (V c main_v44 : S1x16.Idx → EReal) (ix2 (0 : Fin 1) q) := by
    show (V c main_v44 : S1x16.Idx → EReal) (((cfg1.win 1).blk t).view.emb (ix2 (0 : Fin 1) q)) = _
    rw [hemb1]
  rw [r0, r1]

/-- An index of the array is in point t's block iff each coordinate is in the block's range on its axis. -/
theorem mem_blk1 (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v45).slice (win1_2.rect t)).set ↔ _
  rw [View.set_slice_whole, Rect.mem_set_unit]
  exact Iff.rfl

/-- Row r lies in the block of point r / 5000. -/
theorem cover1 (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  let t : Fin cfg1.N := ⟨(i 0).val / 5000, by rw [hN]; omega⟩
  obtain ⟨e0, e1, e2, e3, e4, e5⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e4]; show (i 0).val / 5000 * 5000 ≤ (i 0).val ∧ (i 0).val < (i 0).val / 5000 * 5000 + 5000; omega
  | ⟨1, _⟩ => show win1_2.index t (1 : Fin 2) * 16 ≤ (i 1).val ∧ (i 1).val < win1_2.index t (1 : Fin 2) * 16 + 16; rw [e5]; omega

/-- THE OUTPUT ARRAY after region 1: the layer's function of the two input arrays as the region finds them. -/
theorem arr1 (V : (c : Dev nD) → (b : Ref sig .tc) → Buf (Elt Ideal) ((c : Thread nD τ).loc b)) (c : Dev nD) :
    (dat1 (F := Ideal) V c).arrAt 2 cfg1.N = biasRelu (V c main_v43) (V c main_v44) :=
  (dat1 V c).arrAt_eq_of_cover 2 (biasRelu (V c main_v43) (V c main_v44)) (fun t _ => flushed1_eq V c t) cover1

end Cert.KernelIdeal.Hand

end
-- ==== Proof.RegionMatmul.lean ====
/- The two matrix-product regions of the kernel, each read as ONE function of its input arrays: after region 0 the
   whole [100000,16] output array is the product of the [100000,512] array by the [512,16] array, after region 2 the
   whole [100000,40] array is the product of the [100000,16] array by the [16,40] array, at the ideal values (extended
   reals, no rounding), spelt with the reference program's `dot_general` records.
   The road: a product contracted over one axis is a sum over that axis's coordinate (`matmul_sum_contr`); the body's
   payload at row p, column q of its block is the sum over k of (block row p of the left block) times (column q of the
   right block) (`pay0_apply`, `pay2_apply`); block t of the left window is rows 5000·t … 5000·t + 4999 of its array
   and the right window's one block is its whole array, so what point t writes back is block t of the whole product
   (`flushed0_eq`, `flushed2_eq`); the 20 blocks cover the 100000 rows (`cover0`, `cover2`). -/
import proofs.«151575_j70789650972705_1_alg».proof.Proof.Gen.KernelIdeal.Frame
import proofs.«151575_j70789650972705_1_alg».proof.Proof.Gen.ReferenceIdeal
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen

/-- The zero offsets of a whole-block access, as a constant function. -/
theorem matmul_offsets_zero : (![0, 0] : Fin 2 → Nat) = fun _ => 0 := funext fun a => by fin_cases a <;> rfl

/-! ## A product contracted over one axis, as a sum over that axis's coordinate -/

/-- For dimension numbers of an [m,K] by [K,n] product whose contraction shape has the one axis of extent K and whose
    operand indices at output index (p, q) and contraction index k are (p, k) and (k, q): the sum over the contraction
    index set is the sum over k below K. -/
theorem matmul_sum_contr {m K n : Nat} (D : DotDims ⟨2, ![m, K]⟩ ⟨2, ![K, n]⟩ ⟨2, ![m, n]⟩)
    (hr : D.contr.rank = 1) (hs : D.contr.size ⟨0, by omega⟩ = K)
    (l0 : ∀ i k, (D.lhsIdx i k 0).val = (i 0).val) (l1 : ∀ i k, (D.lhsIdx i k 1).val = (k ⟨0, by omega⟩).val)
    (r0 : ∀ i k, (D.rhsIdx i k 0).val = (k ⟨0, by omega⟩).val) (r1 : ∀ i k, (D.rhsIdx i k 1).val = (i 1).val)
    (lhs : (⟨2, ![m, K]⟩ : Shape).Idx → EReal) (rhs : (⟨2, ![K, n]⟩ : Shape).Idx → EReal) (p : Fin m) (q : Fin n) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact l0 _ _
    | ⟨1, _⟩ => exact (l1 _ _).trans hk)
  have er : D.rhsIdx (ix2 p q) ((contrEquiv1 D K hr hs).symm k) = ix2 k q := funext fun a => Fin.ext (by
    match a with
    | ⟨0, _⟩ => exact (r0 _ _).trans hk
    | ⟨1, _⟩ => exact r1 _ _)
  rw [el, er]

/-! ## Region 0: the [100000,512] array by the [512,16] array -/

/-- The body's product of a [5000,512] block by the [512,16] block: its operand indices at an output index and a contraction index, coordinate by coordinate. -/
theorem kdot0_l0 (i : S5000x16.Idx) (k : dot_S5000x512_S512x16_S5000x16_1_0_0_1_n_n.contr.Idx) : (dot_S5000x512_S512x16_S5000x16_1_0_0_1_n_n.lhsIdx i k 0).val = (i 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
theorem kdot0_l1 (i : S5000x16.Idx) (k : dot_S5000x512_S512x16_S5000x16_1_0_0_1_n_n.contr.Idx) : (dot_S5000x512_S512x16_S5000x16_1_0_0_1_n_n.lhsIdx i k 1).val = (k ⟨0, by decide⟩).val :=
  dot_S5000x512_S512x16_S5000x16_1_0_0_1_n_n.lhsIdx_val_of_single rfl i k
theorem kdot0_r0 (i : S5000x16.Idx) (k : dot_S5000x512_S512x16_S5000x16_1_0_0_1_n_n.contr.Idx) : (dot_S5000x512_S512x16_S5000x16_1_0_0_1_n_n.rhsIdx i k 0).val = (k ⟨0, by decide⟩).val :=
  dot_S5000x512_S512x16_S5000x16_1_0_0_1_n_n.rhsIdx_val_of_single rfl i k
theorem kdot0_r1 (i : S5000x16.Idx) (k : dot_S5000x512_S512x16_S5000x16_1_0_0_1_n_n.contr.Idx) : (dot_S5000x512_S512x16_S5000x16_1_0_0_1_n_n.rhsIdx i k 1).val = (i 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- The same four facts for the whole-array product of the [100000,512] array by the [512,16] array. -/
theorem rdot0_l0 (i : Cert.ReferenceIdeal.S100000x16.Idx) (k : Cert.ReferenceIdeal.dot_S100000x512_S512x16_S100000x16_1_0_0_1_n_n.contr.Idx) : (Cert.ReferenceIdeal.dot_S100000x512_S512x16_S100000x16_1_0_0_1_n_n.lhsIdx i k 0).val = (i 0).val := by
  unfold DotDims.lhsIdx
  rw [dif_neg (show ¬(0 : Fin Cert.ReferenceIdeal.S100000x512.rank) ∈ Cert.ReferenceIdeal.dot_S100000x512_S512x16_S100000x16_1_0_0_1_n_n.lhsBatch by decide), dif_pos (show (0 : Fin Cert.ReferenceIdeal.S100000x512.rank) ∈ Cert.ReferenceIdeal.dot_S100000x512_S512x16_S100000x16_1_0_0_1_n_n.lhsNonContracting by decide)]
  rfl
theorem rdot0_l1 (i : Cert.ReferenceIdeal.S100000x16.Idx) (k : Cert.ReferenceIdeal.dot_S100000x512_S512x16_S100000x16_1_0_0_1_n_n.contr.Idx) : (Cert.ReferenceIdeal.dot_S100000x512_S512x16_S100000x16_1_0_0_1_n_n.lhsIdx i k 1).val = (k ⟨0, by decide⟩).val :=
  Cert.ReferenceIdeal.dot_S100000x512_S512x16_S100000x16_1_0_0_1_n_n.lhsIdx_val_of_single rfl i k
theorem rdot0_r0 (i : Cert.ReferenceIdeal.S100000x16.Idx) (k : Cert.ReferenceIdeal.dot_S100000x512_S512x16_S100000x16_1_0_0_1_n_n.contr.Idx) : (Cert.ReferenceIdeal.dot_S100000x512_S512x16_S100000x16_1_0_0_1_n_n.rhsIdx i k 0).val = (k ⟨0, by decide⟩).val :=
  Cert.ReferenceIdeal.dot_S100000x512_S512x16_S100000x16_1_0_0_1_n_n.rhsIdx_val_of_single rfl i k
theorem rdot0_r1 (i : Cert.ReferenceIdeal.S100000x16.Idx) (k : Cert.ReferenceIdeal.dot_S100000x512_S512x16_S100000x16_1_0_0_1_n_n.contr.Idx) : (Cert.ReferenceIdeal.dot_S100000x512_S512x16_S100000x16_1_0_0_1_n_n.rhsIdx i k 1).val = (i 1).val := by
  unfold DotDims.rhsIdx
  rw [dif_neg (show ¬(1 : Fin Cert.ReferenceIdeal.S512x16.rank) ∈ Cert.ReferenceIdeal.dot_S100000x512_S512x16_S100000x16_1_0_0_1_n_n.rhsBatch by decide), dif_pos (show (1 : Fin Cert.ReferenceIdeal.S512x16.rank) ∈ Cert.ReferenceIdeal.dot_S100000x512_S512x16_S100000x16_1_0_0_1_n_n.rhsNonContracting by decide)]
  rfl

/-- The body's payload at row p, column q of its block: the sum over k of the left block at (p, k) times the right block
    at (k, q) (the narrowing format changes are the identity at the ideal values, the accumulator is the zero splat). -/
theorem pay0_apply (x0 : Vec Ideal S5000x512 .f32) (x1 : Vec Ideal S512x16 .f32) (p : Fin 5000) (q : Fin 16) :
    k0_pay1 (F := Ideal) x0 x1 (ix2 p q) = ∑ k : Fin 512, x0 (ix2 p k) * x1 (ix2 k q) := by
  unfold k0_pay1
  refine (Ideal.matmul_constant_zero_apply dot_S5000x512_S512x16_S5000x16_1_0_0_1_n_n none _ _ (ix2 p q)).trans ?_
  exact matmul_sum_contr dot_S5000x512_S512x16_S5000x16_1_0_0_1_n_n rfl rfl kdot0_l0 kdot0_l1 kdot0_r0 kdot0_r1 x0 x1 p q

/-- The whole-array product at row r, column q: the sum over k of the left array at (r, k) times the right array at (k, q). -/
theorem ref0_apply (A : Cert.ReferenceIdeal.S100000x512.Idx → EReal) (W : Cert.ReferenceIdeal.S512x16.Idx → EReal) (r : Fin 100000) (q : Fin 16) :
    Host.dotGeneral (F := Ideal) (φ₁ := .f32) (φ₂ := .f32) Cert.ReferenceIdeal.dot_S100000x512_S512x16_S100000x16_1_0_0_1_n_n none A W (ix2 r q) = ∑ k : Fin 512, A (ix2 r k) * W (ix2 k q) := by
  refine (Ideal.dotGeneral_apply Cert.ReferenceIdeal.dot_S100000x512_S512x16_S100000x16_1_0_0_1_n_n none .single _ _ (ix2 r q)).trans ?_
  exact matmul_sum_contr Cert.ReferenceIdeal.dot_S100000x512_S512x16_S100000x16_1_0_0_1_n_n rfl rfl rdot0_l0 rdot0_l1 rdot0_r0 rdot0_r1 A W r q

variable (V : (c : Dev nD) → (b : Ref sig .tc) → Buf (Elt Ideal) ((c : Thread nD τ).loc b))

/-- The printed index maps of region 0 over its 20 points: the left window and the output window are at block (t, 0), the
    right window always at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block t of the left window at (p, k) is the left array at row 5000·t + p, column k. -/
theorem lblk0_apply (c : Dev nD) (t : Fin cfg0.N) (p : Fin 5000) (k : Fin 512) (r : Fin 100000) (hr : r.val = 5000 * t.val + p.val) :
    (iblk0 V c 0 t : Vec Ideal S5000x512 .f32) (ix2 p k) = (V c main_arg0 : S100000x512.Idx → EReal) (ix2 r k) := by
  obtain ⟨e0, e1, -, -, -, -⟩ := idx0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 512 + 1 * k.val = k.val; rw [e1]; omega

/-- The right window's one block at (k, q) is the right array at (k, q). -/
theorem rblk0_apply (c : Dev nD) (t : Fin cfg0.N) (k : Fin 512) (q : Fin 16) :
    (iblk0 V c 1 t : Vec Ideal S512x16 .f32) (ix2 k q) = (V c main_arg2 : S512x16.Idx → EReal) (ix2 k q) := by
  obtain ⟨-, -, e2, e3, -, -⟩ := idx0 t
  unfold iblk0
  rw [View.read_apply]
  show V c main_arg2 _ = V c main_arg2 _
  congr 1
  funext a
  apply Fin.ext
  match a with
  | ⟨0, _⟩ => show win0_1.index t (0 : Fin 2) * 512 + 1 * k.val = k.val; rw [e2]; omega
  | ⟨1, _⟩ => show win0_1.index t (1 : Fin 2) * 16 + 1 * q.val = q.val; rw [e3]; omega

/-- Block t of the output window at (p, q) sits in the output array at row 5000·t + p, column q. -/
theorem oblk0_emb (t : Fin cfg0.N) (p : Fin 5000) (q : Fin 16) (r : Fin 100000) (hr : r.val = 5000 * t.val + p.val) :
    ((cfg0.win 2).blk t).view.emb (ix2 p q) = (ix2 r q : S100000x16.Idx) := by
  obtain ⟨-, -, -, -, e4, e5⟩ := idx0 t
  funext a
  apply Fin.ext
  match a with
  | ⟨0, _⟩ => show win0_2.index t (0 : Fin 2) * 5000 + 1 * p.val = r.val; rw [e4, hr]; omega
  | ⟨1, _⟩ => show win0_2.index t (1 : Fin 2) * 16 + 1 * q.val = q.val; rw [e5]; omega

/-- WHAT POINT t WRITES BACK in region 0 is block t of the product of the region's two input arrays. -/
theorem flushed0_eq (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S100000x512_S512x16_S100000x16_1_0_0_1_n_n none (V c main_arg0) (V c main_arg2)) := by
  show (cfg0.win 2).cut (grid0.coords t) ((dat0 V c).after 2 t) = _
  rw [after0_2]
  unfold out0_2
  rw [View.canon_unit_zero matmul_offsets_zero]
  simp only [View.ld_unit_zero (S := S5000x512) matmul_offsets_zero, View.ld_unit_zero (S := S512x16) matmul_offsets_zero]
  have ht : t.val < 20 := lt_of_lt_of_eq t.isLt N_0
  funext j
  obtain ⟨p, q, rfl⟩ : ∃ (p : Fin 5000) (q : Fin 16), j = ix2 p q := ⟨j 0, j 1, eq_ix2 j⟩
  have hp : p.val < 5000 := p.isLt
  show k0_pay1 (F := Ideal) (iblk0 V c 0 t) (iblk0 V c 1 t) (ix2 p q)
    = Host.dotGeneral (F := Ideal) (φ₁ := .f32) (φ₂ := .f32) Cert.ReferenceIdeal.dot_S100000x512_S512x16_S100000x16_1_0_0_1_n_n none (V c main_arg0) (V c main_arg2) (((cfg0.win 2).blk t).view.emb (ix2 p q))
  rw [oblk0_emb t p q ⟨5000 * t.val + p.val, by omega⟩ rfl, pay0_apply]
  refine Eq.trans ?_ (ref0_apply (V c main_arg0) (V c main_arg2) _ q).symm
  refine Finset.sum_congr rfl fun k _ => ?_
  rw [lblk0_apply V c t p k ⟨5000 * t.val + p.val, by omega⟩ rfl, rblk0_apply V c t k q]

/-- An index of the output array is in point t's block iff each coordinate is in the block's range on its axis. -/
theorem mem_oblk0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Row r of the output array is in the block of point r / 5000: the 20 blocks cover the array. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  let t : Fin cfg0.N := ⟨(i 0).val / 5000, lt_of_lt_of_eq (by omega : (i 0).val / 5000 < 20) N_0.symm⟩
  have htv : t.val = (i 0).val / 5000 := rfl
  obtain ⟨-, -, -, -, e4, e5⟩ := idx0 t
  refine ⟨t, flush0_2 t, ?_⟩
  rw [mem_oblk0]
  intro a
  match a with
  | ⟨0, _⟩ => show win0_2.index t (0 : Fin 2) * 5000 ≤ (i 0).val ∧ (i 0).val < win0_2.index t (0 : Fin 2) * 5000 + 5000; rw [e4, htv]; omega
  | ⟨1, _⟩ => show win0_2.index t (1 : Fin 2) * 16 ≤ (i 1).val ∧ (i 1).val < win0_2.index t (1 : Fin 2) * 16 + 16; rw [e5]; omega

/-- THE OUTPUT ARRAY AFTER REGION 0: the product of the region's two input arrays as it finds them. -/
theorem arr0 (c : Dev nD) :
    (dat0 (F := Ideal) V c).arrAt 2 cfg0.N
      = Host.dotGeneral (F := Ideal) (φ₁ := .f32) (φ₂ := .f32) Cert.ReferenceIdeal.dot_S100000x512_S512x16_S100000x16_1_0_0_1_n_n none (V c main_arg0) (V c main_arg2) :=
  (dat0 (F := Ideal) V c).arrAt_eq_of_cover 2 _ (fun t _ => flushed0_eq V c t) cover0

/-! ## Region 2: the [100000,16] array by the [16,40] array -/

/-- The body's product of a [5000,16] block by the [16,40] block: its operand indices at an output index and a contraction index, coordinate by coordinate. -/
theorem kdot2_l0 (i : S5000x40.Idx) (k : dot_S5000x16_S16x40_S5000x40_1_0_0_1_n_n.contr.Idx) : (dot_S5000x16_S16x40_S5000x40_1_0_0_1_n_n.lhsIdx i k 0).val = (i 0).val := by
  unfold DotDims.lhsIdx
  rw [dif_neg (show ¬(0 : Fin S5000x16.rank) ∈ dot_S5000x16_S16x40_S5000x40_1_0_0_1_n_n.lhsBatch by decide), dif_pos (show (0 : Fin S5000x16.rank) ∈ dot_S5000x16_S16x40_S5000x40_1_0_0_1_n_n.lhsNonContracting by decide)]
  rfl
theorem kdot2_l1 (i : S5000x40.Idx) (k : dot_S5000x16_S16x40_S5000x40_1_0_0_1_n_n.contr.Idx) : (dot_S5000x16_S16x40_S5000x40_1_0_0_1_n_n.lhsIdx i k 1).val = (k ⟨0, by decide⟩).val :=
  dot_S5000x16_S16x40_S5000x40_1_0_0_1_n_n.lhsIdx_val_of_single rfl i k
theorem kdot2_r0 (i : S5000x40.Idx) (k : dot_S5000x16_S16x40_S5000x40_1_0_0_1_n_n.contr.Idx) : (dot_S5000x16_S16x40_S5000x40_1_0_0_1_n_n.rhsIdx i k 0).val = (k ⟨0, by decide⟩).val :=
  dot_S5000x16_S16x40_S5000x40_1_0_0_1_n_n.rhsIdx_val_of_single rfl i k
theorem kdot2_r1 (i : S5000x40.Idx) (k : dot_S5000x16_S16x40_S5000x40_1_0_0_1_n_n.contr.Idx) : (dot_S5000x16_S16x40_S5000x40_1_0_0_1_n_n.rhsIdx i k 1).val = (i 1).val := by
  unfold DotDims.rhsIdx
  rw [dif_neg (show ¬(1 : Fin S16x40.rank) ∈ dot_S5000x16_S16x40_S5000x40_1_0_0_1_n_n.rhsBatch by decide), dif_pos (show (1 : Fin S16x40.rank) ∈ dot_S5000x16_S16x40_S5000x40_1_0_0_1_n_n.rhsNonContracting by decide)]
  rfl

/-- The same four facts for the whole-array product of the [100000,16] array by the [16,40] array. -/
theorem rdot2_l0 (i : Cert.ReferenceIdeal.S100000x40.Idx) (k : Cert.ReferenceIdeal.dot_S100000x16_S16x40_S100000x40_1_0_0_1_n_n.contr.Idx) : (Cert.ReferenceIdeal.dot_S100000x16_S16x40_S100000x40_1_0_0_1_n_n.lhsIdx i k 0).val = (i 0).val := by
  unfold DotDims.lhsIdx
  rw [dif_neg (show ¬(0 : Fin Cert.ReferenceIdeal.S100000x16.rank) ∈ Cert.ReferenceIdeal.dot_S100000x16_S16x40_S100000x40_1_0_0_1_n_n.lhsBatch by decide), dif_pos (show (0 : Fin Cert.ReferenceIdeal.S100000x16.rank) ∈ Cert.ReferenceIdeal.dot_S100000x16_S16x40_S100000x40_1_0_0_1_n_n.lhsNonContracting by decide)]
  rfl
theorem rdot2_l1 (i : Cert.ReferenceIdeal.S100000x40.Idx) (k : Cert.ReferenceIdeal.dot_S100000x16_S16x40_S100000x40_1_0_0_1_n_n.contr.Idx) : (Cert.ReferenceIdeal.dot_S100000x16_S16x40_S100000x40_1_0_0_1_n_n.lhsIdx i k 1).val = (k ⟨0, by decide⟩).val :=
  Cert.ReferenceIdeal.dot_S100000x16_S16x40_S100000x40_1_0_0_1_n_n.lhsIdx_val_of_single rfl i k
theorem rdot2_r0 (i : Cert.ReferenceIdeal.S100000x40.Idx) (k : Cert.ReferenceIdeal.dot_S100000x16_S16x40_S100000x40_1_0_0_1_n_n.contr.Idx) : (Cert.ReferenceIdeal.dot_S100000x16_S16x40_S100000x40_1_0_0_1_n_n.rhsIdx i k 0).val = (k ⟨0, by decide⟩).val :=
  Cert.ReferenceIdeal.dot_S100000x16_S16x40_S100000x40_1_0_0_1_n_n.rhsIdx_val_of_single rfl i k
theorem rdot2_r1 (i : Cert.ReferenceIdeal.S100000x40.Idx) (k : Cert.ReferenceIdeal.dot_S100000x16_S16x40_S100000x40_1_0_0_1_n_n.contr.Idx) : (Cert.ReferenceIdeal.dot_S100000x16_S16x40_S100000x40_1_0_0_1_n_n.rhsIdx i k 1).val = (i 1).val := by
  unfold DotDims.rhsIdx
  rw [dif_neg (show ¬(1 : Fin Cert.ReferenceIdeal.S16x40.rank) ∈ Cert.ReferenceIdeal.dot_S100000x16_S16x40_S100000x40_1_0_0_1_n_n.rhsBatch by decide), dif_pos (show (1 : Fin Cert.ReferenceIdeal.S16x40.rank) ∈ Cert.ReferenceIdeal.dot_S100000x16_S16x40_S100000x40_1_0_0_1_n_n.rhsNonContracting by decide)]
  rfl

/-- The body's payload at row p, column q of its block: the sum over k of the left block at (p, k) times the right block
    at (k, q) (the cast of the left block to its own shape and the narrowing format changes are the identity at the
    ideal values, the accumulator is the zero splat). -/
theorem pay2_apply (x0 : Vec Ideal S5000x16 .f32) (x1 : Vec Ideal S16x40 .f32) (p : Fin 5000) (q : Fin 40) :
    k2_pay1 (F := Ideal) x0 x1 (ix2 p q) = ∑ k : Fin 16, x0 (ix2 p k) * x1 (ix2 k q) := by
  unfold k2_pay1
  rw [shapeCast_self]
  refine (Ideal.matmul_constant_zero_apply dot_S5000x16_S16x40_S5000x40_1_0_0_1_n_n none _ _ (ix2 p q)).trans ?_
  exact matmul_sum_contr dot_S5000x16_S16x40_S5000x40_1_0_0_1_n_n rfl rfl kdot2_l0 kdot2_l1 kdot2_r0 kdot2_r1 x0 x1 p q

/-- The whole-array product at row r, column q: the sum over k of the left array at (r, k) times the right array at (k, q). -/
theorem ref2_apply (A : Cert.ReferenceIdeal.S100000x16.Idx → EReal) (W : Cert.ReferenceIdeal.S16x40.Idx → EReal) (r : Fin 100000) (q : Fin 40) :
    Host.dotGeneral (F := Ideal) (φ₁ := .f32) (φ₂ := .f32) Cert.ReferenceIdeal.dot_S100000x16_S16x40_S100000x40_1_0_0_1_n_n none A W (ix2 r q) = ∑ k : Fin 16, A (ix2 r k) * W (ix2 k q) := by
  refine (Ideal.dotGeneral_apply Cert.ReferenceIdeal.dot_S100000x16_S16x40_S100000x40_1_0_0_1_n_n none .single _ _ (ix2 r q)).trans ?_
  exact matmul_sum_contr Cert.ReferenceIdeal.dot_S100000x16_S16x40_S100000x40_1_0_0_1_n_n rfl rfl rdot2_l0 rdot2_l1 rdot2_r0 rdot2_r1 A W r q

/-- The printed index maps of region 2 over its 20 points: the left window and the output window are at block (t, 0), the
    right window always at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Block t of the left window at (p, k) is the left array at row 5000·t + p, column k. -/
theorem lblk2_apply (c : Dev nD) (t : Fin cfg2.N) (p : Fin 5000) (k : Fin 16) (r : Fin 100000) (hr : r.val = 5000 * t.val + p.val) :
    (iblk2 V c 0 t : Vec Ideal S5000x16 .f32) (ix2 p k) = (V c main_v45 : S100000x16.Idx → EReal) (ix2 r k) := by
  obtain ⟨e0, e1, -, -, -, -⟩ := idx2 t
  unfold iblk2
  rw [View.read_apply]
  show V c main_v45 _ = V c main_v45 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 16 + 1 * k.val = k.val; rw [e1]; omega

/-- The right window's one block at (k, q) is the right array at (k, q). -/
theorem rblk2_apply (c : Dev nD) (t : Fin cfg2.N) (k : Fin 16) (q : Fin 40) :
    (iblk2 V c 1 t : Vec Ideal S16x40 .f32) (ix2 k q) = (V c main_arg4 : S16x40.Idx → EReal) (ix2 k q) := by
  obtain ⟨-, -, e2, e3, -, -⟩ := idx2 t
  unfold iblk2
  rw [View.read_apply]
  show V c main_arg4 _ = V c main_arg4 _
  congr 1
  funext a
  apply Fin.ext
  match a with
  | ⟨0, _⟩ => show win2_1.index t (0 : Fin 2) * 16 + 1 * k.val = k.val; rw [e2]; omega
  | ⟨1, _⟩ => show win2_1.index t (1 : Fin 2) * 40 + 1 * q.val = q.val; rw [e3]; omega

/-- Block t of the output window at (p, q) sits in the output array at row 5000·t + p, column q. -/
theorem oblk2_emb (t : Fin cfg2.N) (p : Fin 5000) (q : Fin 40) (r : Fin 100000) (hr : r.val = 5000 * t.val + p.val) :
    ((cfg2.win 2).blk t).view.emb (ix2 p q) = (ix2 r q : S100000x40.Idx) := by
  obtain ⟨-, -, -, -, e4, e5⟩ := idx2 t
  funext a
  apply Fin.ext
  match a with
  | ⟨0, _⟩ => show win2_2.index t (0 : Fin 2) * 5000 + 1 * p.val = r.val; rw [e4, hr]; omega
  | ⟨1, _⟩ => show win2_2.index t (1 : Fin 2) * 40 + 1 * q.val = q.val; rw [e5]; omega

/-- WHAT POINT t WRITES BACK in region 2 is block t of the product of the region's two input arrays. -/
theorem flushed2_eq (c : Dev nD) (t : Fin cfg2.N) :
    (dat2 (F := Ideal) V c).flushed 2 t = ((cfg2.win 2).blk t).view.read (Elt Ideal)
      (Host.dotGeneral (F := Ideal) (φ₁ := .f32) (φ₂ := .f32) Cert.ReferenceIdeal.dot_S100000x16_S16x40_S100000x40_1_0_0_1_n_n none (V c main_v45) (V c main_arg4)) := by
  show (cfg2.win 2).cut (grid2.coords t) ((dat2 V c).after 2 t) = _
  rw [after2_2]
  unfold out2_2
  rw [View.canon_unit_zero matmul_offsets_zero]
  simp only [View.ld_unit_zero (S := S5000x16) matmul_offsets_zero, View.ld_unit_zero (S := S16x40) matmul_offsets_zero]
  have ht : t.val < 20 := lt_of_lt_of_eq t.isLt N_2
  funext j
  obtain ⟨p, q, rfl⟩ : ∃ (p : Fin 5000) (q : Fin 40), j = ix2 p q := ⟨j 0, j 1, eq_ix2 j⟩
  have hp : p.val < 5000 := p.isLt
  show k2_pay1 (F := Ideal) (iblk2 V c 0 t) (iblk2 V c 1 t) (ix2 p q)
    = Host.dotGeneral (F := Ideal) (φ₁ := .f32) (φ₂ := .f32) Cert.ReferenceIdeal.dot_S100000x16_S16x40_S100000x40_1_0_0_1_n_n none (V c main_v45) (V c main_arg4) (((cfg2.win 2).blk t).view.emb (ix2 p q))
  rw [oblk2_emb t p q ⟨5000 * t.val + p.val, by omega⟩ rfl, pay2_apply]
  refine Eq.trans ?_ (ref2_apply (V c main_v45) (V c main_arg4) _ q).symm
  refine Finset.sum_congr rfl fun k _ => ?_
  rw [lblk2_apply V c t p k ⟨5000 * t.val + p.val, by omega⟩ rfl, rblk2_apply V c t k q]

/-- An index of the output array is in point t's block iff each coordinate is in the block's range on its axis. -/
theorem mem_oblk2 (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v46).slice (win2_2.rect t)).set ↔ _
  rw [View.set_slice_whole, Rect.mem_set_unit]
  exact Iff.rfl

/-- Row r of the output array is in the block of point r / 5000: the 20 blocks cover the array. -/
theorem cover2 (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  let t : Fin cfg2.N := ⟨(i 0).val / 5000, lt_of_lt_of_eq (by omega : (i 0).val / 5000 < 20) N_2.symm⟩
  have htv : t.val = (i 0).val / 5000 := rfl
  obtain ⟨-, -, -, -, e4, e5⟩ := idx2 t
  refine ⟨t, flush2_2 t, ?_⟩
  rw [mem_oblk2]
  intro a
  match a with
  | ⟨0, _⟩ => show win2_2.index t (0 : Fin 2) * 5000 ≤ (i 0).val ∧ (i 0).val < win2_2.index t (0 : Fin 2) * 5000 + 5000; rw [e4, htv]; omega
  | ⟨1, _⟩ => show win2_2.index t (1 : Fin 2) * 40 ≤ (i 1).val ∧ (i 1).val < win2_2.index t (1 : Fin 2) * 40 + 40; rw [e5]; omega

/-- THE OUTPUT ARRAY AFTER REGION 2: the product of the region's two input arrays as it finds them. -/
theorem arr2 (c : Dev nD) :
    (dat2 (F := Ideal) V c).arrAt 2 cfg2.N
      = Host.dotGeneral (F := Ideal) (φ₁ := .f32) (φ₂ := .f32) Cert.ReferenceIdeal.dot_S100000x16_S16x40_S100000x40_1_0_0_1_n_n none (V c main_v45) (V c main_arg4) :=
  (dat2 (F := Ideal) V c).arrAt_eq_of_cover 2 _ (fun t _ => flushed2_eq V c t) cover2

end Cert.KernelIdeal.Hand

end
-- ==== Proof.RegionLogSoftmax.lean ====
/-
  Region 3 of the idealized kernel: the one-row bias added along every row, then a log-softmax over the 40 columns of
  each row, a row block at a time, as ONE function of the region's two input arrays.
  With z (r, q) = x (r, q) + b (0, q) and M r the maximum of row r of z taken from −∞, each of the twenty grid points
  writes back, for its 5000 rows, (z (r, q) − M r) − log (∑ k, exp (z (r, k) − M r)). The blocks tile the 100000 rows,
  and the host's log_softmax of x plus the bias laid down the rows is the same expression of each row, so both sides
  are read down to one row function (rowLsm) and no arithmetic of the extended reals is needed.
-/
import proofs.«151575_j70789650972705_1_alg».proof.Proof.Gen.KernelIdeal.Frame
import proofs.«151575_j70789650972705_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

/-! ## One row's log-softmax -/

/-- The maximum of a row of 40 extended reals, taken from −∞ (the word 0xFF800000). -/
def rowMax (f : Fin 40 → EReal) : EReal :=
  (Finset.univ : Finset (Fin 40)).fold max (Ideal.ofBits .f32 0xFF800000#32) f

/-- A row's log-softmax at column q: the entry less the row's maximum, less the logarithm of the sum of the
    exponentials of the row's entries less that maximum. -/
def rowLsm (f : Fin 40 → EReal) (q : Fin 40) : EReal :=
  (f q - rowMax f) - Ideal.log (∑ k : Fin 40, Ideal.exp (f k - rowMax f))

/-! ## The column forms of the layout operations, read at an index -/

/-- A vector of a entries cast to a column reads, at (i, u), entry i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column of a entries broadcast over b columns reads, at (i, c), the column's entry i. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The kernel's payload, read at an index -/

/-- The reduced row index r of an m × n matrix with column k put back is (r, k). -/
theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- A block's row maxima (from −∞), kept as a column and laid back over the 40 columns, read at (p, q): row p's maximum. -/
theorem rowMax_keepdims_apply (z : FVec Ideal S5000x40 .f32) (h : S5000x40.Reduces [1] S5000) (hφ : FKind.Formats .f32)
    (hacc : (0xFF800000#32 : BitVec 32) = FKind.maximumf.neutral .f32 hφ) (hc : S5000.ShapeCasts S5000x1)
    (hb : S5000x1.Broadcasts S5000x40) (p : Fin 5000) (q : Fin 40) :
    broadcastTo S5000x40 (shapeCast S5000x1 (multiReduction .maximumf [1] S5000 z 0xFF800000#32 h hφ hacc) hc) hb (ix2 p q)
      = rowMax fun k => z (ix2 p k) := by
  refine (broadcastTo_a1_ab_apply _ hb p q).trans ?_
  refine (shapeCast_a_a1_apply _ hc p 0).trans ?_
  refine (Ideal.multiReduction_maximumf_single z _ h hφ hacc (ix1 p)).trans ?_
  have hf : (z ∘ h.lift (ix1 p)) = fun k : Fin 40 => z (ix2 p k) := funext fun k => congrArg z (lift_row h p k)
  exact congrArg (fun f => Finset.fold max (Ideal.ofBits .f32 0xFF800000#32) f (Finset.univ : Finset (Fin 40))) hf

/-- The logarithm of a block's row sums, kept as a column and laid back over the 40 columns, read at (p, q). -/
theorem logRowSum_keepdims_apply (w : FVec Ideal S5000x40 .f32) (h : S5000x40.Reduces [1] S5000) (hφ : FKind.Formats .f32)
    (hacc : (0x00000000#32 : BitVec 32) = FKind.add.neutral .f32 hφ) (hc : S5000.ShapeCasts S5000x1)
    (hb : S5000x1.Broadcasts S5000x40) (p : Fin 5000) (q : Fin 40) :
    broadcastTo S5000x40 (log (shapeCast S5000x1 (multiReduction .add [1] S5000 w 0x00000000#32 h hφ hacc) hc)) hb (ix2 p q)
      = Ideal.log (∑ k : Fin 40, w (ix2 p k)) := by
  refine (broadcastTo_a1_ab_apply _ hb p q).trans ?_
  show Ideal.log (shapeCast S5000x1 (multiReduction .add [1] S5000 w 0x00000000#32 h hφ hacc) hc (ix2 p (0 : Fin 1))) = _
  refine congrArg Ideal.log ?_
  refine (shapeCast_a_a1_apply _ hc p 0).trans ?_
  refine (Ideal.multiReduction_add_single w _ h hφ hacc (ix1 p)).trans ?_
  exact Finset.sum_congr rfl fun k _ => congrArg w (lift_row h p k)

/-- The body's log-softmax of a block z, read at (p, q): row p's log-softmax at column q. -/
theorem lsm_keepdims_apply (z : FVec Ideal S5000x40 .f32) (h : S5000x40.Reduces [1] S5000) (hφ : FKind.Formats .f32)
    (hmax : (0xFF800000#32 : BitVec 32) = FKind.maximumf.neutral .f32 hφ)
    (hadd : (0x00000000#32 : BitVec 32) = FKind.add.neutral .f32 hφ) (hc : S5000.ShapeCasts S5000x1)
    (hb : S5000x1.Broadcasts S5000x40) (p : Fin 5000) (q : Fin 40) :
    subf (subf z (broadcastTo S5000x40 (shapeCast S5000x1 (multiReduction .maximumf [1] S5000 z 0xFF800000#32 h hφ hmax) hc) hb))
        (broadcastTo S5000x40 (log (shapeCast S5000x1 (multiReduction .add [1] S5000
          (exp (subf z (broadcastTo S5000x40 (shapeCast S5000x1 (multiReduction .maximumf [1] S5000 z 0xFF800000#32 h hφ hmax) hc) hb)))
          0x00000000#32 h hφ hadd) hc)) hb) (ix2 p q)
      = rowLsm (fun k => z (ix2 p k)) q := by
  rw [subf_apply, subf_apply, rowMax_keepdims_apply, logRowSum_keepdims_apply]
  unfold rowLsm
  refine congrArg (fun s => z (ix2 p q) - rowMax (fun k => z (ix2 p k)) - Ideal.log s) (Finset.sum_congr rfl fun k _ => ?_)
  show Ideal.exp (z (ix2 p k) - broadcastTo S5000x40 (shapeCast S5000x1 (multiReduction .maximumf [1] S5000 z 0xFF800000#32 h hφ hmax) hc) hb (ix2 p k)) = _
  rw [rowMax_keepdims_apply]

/-- THE PAYLOAD AT (p, q): the log-softmax, at column q, of row p of the loaded block with the loaded bias row added. -/
theorem pay_apply (x0 : Vec Ideal S5000x40 .f32) (x1 : Vec Ideal S1x40 .f32) (p : Fin 5000) (q : Fin 40) :
    k3_pay1 x0 x1 (ix2 p q) = rowLsm (fun k => x0 (ix2 p k) + x1 (ix2 (0 : Fin 1) k)) q := by
  unfold k3_pay1
  dsimp only
  refine (lsm_keepdims_apply _ _ _ _ _ _ _ p q).trans ?_
  refine congrArg (fun f => rowLsm f q) (funext fun k => ?_)
  rw [addf_apply, shapeCast_self, shapeCast_self, broadcastTo_1b_ab_apply]

/-! ## The reference's log-softmax, read at an index -/

/-- The reference's shifted logits: the array less each row's maximum (taken from −∞, and once more against the −∞ splat),
    kept as a column and laid back over the 40 columns. -/
def lsmShift (z : FVec Ideal Cert.ReferenceIdeal.S100000x40 .f32) : FVec Ideal Cert.ReferenceIdeal.S100000x40 .f32 :=
  subf z (broadcastInDim Cert.ReferenceIdeal.S100000x40 ![0, 1] Cert.ReferenceIdeal.Facts₀.bcast_S100000x1_S100000x40_0_1
    (broadcastInDim Cert.ReferenceIdeal.S100000x1 ![0] Cert.ReferenceIdeal.Facts₀.bcast_S100000_S100000x1_0
      (maximumf (broadcastInDim Cert.ReferenceIdeal.S100000 ![] Cert.ReferenceIdeal.Facts₀.bcast_S_S100000
          (constant (F := Ideal) Cert.ReferenceIdeal.S_ .f32 0xFF800000#32))
        (Host.reduce FloatOps.maximumf z (constant (F := Ideal) Cert.ReferenceIdeal.S_ .f32 0xFF800000#32)
          Cert.ReferenceIdeal.Facts₀.reducesTo_S100000x40_S100000_d1 Cert.ReferenceIdeal.Facts₀.h_S_))))

/-- The reference's log-softmax over the 40 columns: the shifted logits less the logarithm of each row's sum of their
    exponentials, kept as a column and laid back over the 40 columns. -/
def lsmRef (z : FVec Ideal Cert.ReferenceIdeal.S100000x40 .f32) : FVec Ideal Cert.ReferenceIdeal.S100000x40 .f32 :=
  subf (lsmShift z) (broadcastInDim Cert.ReferenceIdeal.S100000x40 ![0, 1] Cert.ReferenceIdeal.Facts₀.bcast_S100000x1_S100000x40_0_1
    (Host.log (broadcastInDim Cert.ReferenceIdeal.S100000x1 ![0] Cert.ReferenceIdeal.Facts₀.bcast_S100000_S100000x1_0
      (Host.reduceAdd (F := Ideal) (Host.exp (lsmShift z)) (constant (F := Ideal) Cert.ReferenceIdeal.S_ .f32 0x00000000#32)
        Cert.ReferenceIdeal.Facts₀.reducesTo_S100000x40_S100000_d1 Cert.ReferenceIdeal.Facts₀.h_S_))))

/-- A vector of a entries laid out as a column (dims [0]) reads, at (i, u), entry i. -/
theorem broadcastInDim_a_a1_apply {α : Type} {a : ℕ} (hbc : (⟨1, ![a]⟩ : Shape).BroadcastsInDim ⟨2, ![a, 1]⟩ ![0])
    (y : (⟨1, ![a]⟩ : Shape).Idx → α) (i : Fin a) (u : Fin 1) :
    broadcastInDim ⟨2, ![a, 1]⟩ ![0] hbc y (ix2 i u) = y (ix1 i) := by
  refine broadcastInDim_apply ![0] hbc y (ix2 i u) (ix1 i) fun ax => ?_
  match ax with
  | ⟨0, _⟩ =>
    show i.val = if a = 1 then 0 else i.val
    split
    · have := i.isLt; omega
    · rfl

/-- A column of a entries laid over b columns (dims [0, 1]) reads, at (i, c), the column's entry i. -/
theorem broadcastInDim_a1_ab_apply {α : Type} {a b : ℕ} (hbc : (⟨2, ![a, 1]⟩ : Shape).BroadcastsInDim ⟨2, ![a, b]⟩ ![0, 1])
    (y : (⟨2, ![a, 1]⟩ : Shape).Idx → α) (i : Fin a) (c : Fin b) :
    broadcastInDim ⟨2, ![a, b]⟩ ![0, 1] hbc y (ix2 i c) = y (ix2 i (0 : Fin 1)) := by
  refine broadcastInDim_apply ![0, 1] hbc y (ix2 i c) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else c.val
    rw [if_pos rfl]

/-- The word 0xFF800000 is −∞: the maximum with it is the other operand. -/
theorem max_negInf (y : EReal) : max (Ideal.ofBits .f32 0xFF800000#32) y = y := by
  simp [Ideal.ofBits, Ideal.ieee]

/-- The reference's row maxima, kept as a column and laid back over the 40 columns, read at (r, q): row r's maximum. -/
theorem refRowMax_apply (z : FVec Ideal Cert.ReferenceIdeal.S100000x40 .f32) (r : Fin 100000) (q : Fin 40) :
    broadcastInDim Cert.ReferenceIdeal.S100000x40 ![0, 1] Cert.ReferenceIdeal.Facts₀.bcast_S100000x1_S100000x40_0_1
      (broadcastInDim Cert.ReferenceIdeal.S100000x1 ![0] Cert.ReferenceIdeal.Facts₀.bcast_S100000_S100000x1_0
        (maximumf (broadcastInDim Cert.ReferenceIdeal.S100000 ![] Cert.ReferenceIdeal.Facts₀.bcast_S_S100000
            (constant (F := Ideal) Cert.ReferenceIdeal.S_ .f32 0xFF800000#32))
          (Host.reduce FloatOps.maximumf z (constant (F := Ideal) Cert.ReferenceIdeal.S_ .f32 0xFF800000#32)
            Cert.ReferenceIdeal.Facts₀.reducesTo_S100000x40_S100000_d1 Cert.ReferenceIdeal.Facts₀.h_S_))) (ix2 r q)
      = rowMax fun k => z (ix2 r k) := by
  refine (broadcastInDim_a1_ab_apply _ _ r q).trans ?_
  refine (broadcastInDim_a_a1_apply _ _ r 0).trans ?_
  rw [maximumf_apply]
  have hred : Cert.ReferenceIdeal.S100000x40.Reduces [1] Cert.ReferenceIdeal.S100000 := by decide
  rw [Host.reduce_eq_fold_single FloatOps.maximumf z _ Cert.ReferenceIdeal.Facts₀.reducesTo_S100000x40_S100000_d1 hred
    Cert.ReferenceIdeal.Facts₀.h_S_]
  have hf : (z ∘ hred.lift (ix1 r)) = fun k : Fin 40 => z (ix2 r k) := funext fun k => congrArg z (lift_row hred r k)
  have e : (Finset.univ : Finset (Fin (Cert.ReferenceIdeal.S100000x40.size 1))).fold FloatOps.maximumf
        (constant (F := Ideal) Cert.ReferenceIdeal.S_ .f32 0xFF800000#32 (Shape.Idx.first Cert.ReferenceIdeal.Facts₀.h_S_))
        (z ∘ hred.lift (ix1 r)) = rowMax fun k => z (ix2 r k) :=
    congrArg (fun f => Finset.fold max (Ideal.ofBits .f32 0xFF800000#32) f (Finset.univ : Finset (Fin 40))) hf
  rw [e]
  exact max_negInf _

/-- The host's exponential at an index, at the ideal values. -/
theorem hostExp_apply {s : Shape} {φ : FTy} (x : FVec Ideal s φ) (i : s.Idx) : Host.exp x i = Ideal.exp (x i) := rfl
/-- The host's logarithm at an index, at the ideal values. -/
theorem hostLog_apply {s : Shape} {φ : FTy} (x : FVec Ideal s φ) (i : s.Idx) : Host.log x i = Ideal.log (x i) := rfl

/-- The logarithm of the reference's row sums (from the zero word), kept as a column and laid back over the 40
    columns, read at (r, q). -/
theorem refLogRowSum_apply (w : FVec Ideal Cert.ReferenceIdeal.S100000x40 .f32) (r : Fin 100000) (q : Fin 40) :
    broadcastInDim Cert.ReferenceIdeal.S100000x40 ![0, 1] Cert.ReferenceIdeal.Facts₀.bcast_S100000x1_S100000x40_0_1
      (Host.log (broadcastInDim Cert.ReferenceIdeal.S100000x1 ![0] Cert.ReferenceIdeal.Facts₀.bcast_S100000_S100000x1_0
        (Host.reduceAdd (F := Ideal) w (constant (F := Ideal) Cert.ReferenceIdeal.S_ .f32 0x00000000#32)
          Cert.ReferenceIdeal.Facts₀.reducesTo_S100000x40_S100000_d1 Cert.ReferenceIdeal.Facts₀.h_S_))) (ix2 r q)
      = Ideal.log (∑ k : Fin 40, w (ix2 r k)) := by
  refine (broadcastInDim_a1_ab_apply _ _ r q).trans ?_
  refine (hostLog_apply _ _).trans ?_
  refine congrArg Ideal.log ?_
  refine (broadcastInDim_a_a1_apply _ _ r 0).trans ?_
  have hred : Cert.ReferenceIdeal.S100000x40.Reduces [1] Cert.ReferenceIdeal.S100000 := by decide
  simp only [Host.reduceAdd, Ideal.hostReduceAdd_def]
  rw [Ideal.hostReduceAdd_single Cert.ReferenceIdeal.Facts₀.reducesTo_S100000x40_S100000_d1 hred]
  refine (congrArg (· + _) (Ideal.ofBits_zero_f32)).trans ?_
  rw [zero_add]
  exact Finset.sum_congr rfl fun k _ => congrArg w (lift_row hred r k)

/-- The reference's shifted logits at (r, q): the entry less row r's maximum. -/
theorem lsmShift_apply (z : FVec Ideal Cert.ReferenceIdeal.S100000x40 .f32) (r : Fin 100000) (q : Fin 40) :
    lsmShift z (ix2 r q) = z (ix2 r q) - rowMax fun k => z (ix2 r k) := by
  unfold lsmShift
  rw [subf_apply, refRowMax_apply]

/-- THE REFERENCE'S LOG-SOFTMAX AT (r, q): row r's log-softmax at column q. -/
theorem lsmRef_apply (z : FVec Ideal Cert.ReferenceIdeal.S100000x40 .f32) (r : Fin 100000) (q : Fin 40) :
    lsmRef z (ix2 r q) = rowLsm (fun k => z (ix2 r k)) q := by
  unfold lsmRef
  rw [subf_apply, refLogRowSum_apply, lsmShift_apply]
  unfold rowLsm
  refine congrArg (fun s => z (ix2 r q) - rowMax (fun k => z (ix2 r k)) - Ideal.log s) (Finset.sum_congr rfl fun k _ => ?_)
  rw [hostExp_apply, lsmShift_apply]

/-- The region's function of its two input arrays, in the reference's spelling: the one-row bias laid along every
    row and added, then the reference's log-softmax. -/
def biasLsm (x : FVec Ideal Cert.ReferenceIdeal.S100000x40 .f32) (b : FVec Ideal Cert.ReferenceIdeal.S1x40 .f32) :
    FVec Ideal Cert.ReferenceIdeal.S100000x40 .f32 :=
  lsmRef (addf x (broadcastInDim Cert.ReferenceIdeal.S100000x40 ![0, 1] Cert.ReferenceIdeal.Facts₀.bcast_S1x40_S100000x40_0_1 b))

/-- At (r, q) it is the log-softmax, at column q, of row r of x with the bias row added. -/
theorem biasLsm_apply (x : FVec Ideal Cert.ReferenceIdeal.S100000x40 .f32) (b : FVec Ideal Cert.ReferenceIdeal.S1x40 .f32)
    (r : Fin 100000) (q : Fin 40) :
    biasLsm x b (ix2 r q) = rowLsm (fun k => x (ix2 r k) + b (ix2 (0 : Fin 1) k)) q := by
  unfold biasLsm
  rw [lsmRef_apply]
  refine congrArg (fun f => rowLsm f q) (funext fun k => ?_)
  rw [addf_apply, broadcastInDim_oneRow_apply]

/-! ## From the blocks to the array -/

/-- The zero offsets of a whole-block access. -/
theorem hz3 : (![0, 0] : Fin 2 → Nat) = fun _ => 0 := funext fun a => by fin_cases a <;> rfl

/-- The printed index maps over the grid: point t's row block is block t of the rows (input and output alike), the
    bias window's one block is the whole bias row. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT t WRITES BACK is block t of the region's function of the two arrays as the region finds them. -/
theorem flushed3_eq (V : (c : Dev nD) → (b : Ref sig .tc) → Buf (Elt Ideal) ((c : Thread nD τ).loc b)) (c : Dev nD) (t : Fin cfg3.N) :
    (dat3 (F := Ideal) V c).flushed 2 t = ((cfg3.win 2).blk t).view.read (Elt Ideal) (biasLsm (V c main_v59) (V c main_v60)) := by
  show (cfg3.win 2).cut (grid3.coords t) ((dat3 V c).after 2 t) = _
  rw [after3_2]
  unfold out3_2
  rw [View.canon_unit_zero hz3]
  simp only [View.ld_unit_zero (S := S5000x40) hz3, View.ld_unit_zero (S := S1x40) hz3]
  obtain ⟨e0, e1, e2, e3, e4, e5⟩ := idx3 t
  funext j
  obtain ⟨p, q, rfl⟩ : ∃ (p : Fin 5000) (q : Fin 40), j = ix2 p q := ⟨j 0, j 1, eq_ix2 j⟩
  have ht : t.val < 20 := lt_of_lt_of_eq t.isLt N_3
  have hp : p.val < 5000 := p.isLt
  have hemb2 : ((cfg3.win 2).blk t).view.emb (ix2 p q) = ix2 (⟨5000 * t.val + p.val, by omega⟩ : Fin 100000) q := by
    funext a; apply Fin.ext
    match a with
    | ⟨0, _⟩ => show win3_2.index t (0 : Fin 2) * 5000 + 1 * p.val = 5000 * t.val + p.val; rw [e4]; omega
    | ⟨1, _⟩ => show win3_2.index t (1 : Fin 2) * 40 + 1 * q.val = q.val; rw [e5]; omega
  have hemb0 : ∀ k : Fin 40, ((cfg3.win 0).blk t).view.emb (ix2 p k) = ix2 (⟨5000 * t.val + p.val, by omega⟩ : Fin 100000) k := by
    intro k
    funext a; apply Fin.ext
    match a with
    | ⟨0, _⟩ => show win3_0.index t (0 : Fin 2) * 5000 + 1 * p.val = 5000 * t.val + p.val; rw [e0]; omega
    | ⟨1, _⟩ => show win3_0.index t (1 : Fin 2) * 40 + 1 * k.val = k.val; rw [e1]; omega
  have hemb1 : ∀ k : Fin 40, ((cfg3.win 1).blk t).view.emb (ix2 (0 : Fin 1) k) = ix2 (0 : Fin 1) k := by
    intro k
    funext a; apply Fin.ext
    match a with
    | ⟨0, _⟩ => show win3_1.index t (0 : Fin 2) * 1 + 1 * 0 = 0; rw [e2]
    | ⟨1, _⟩ => show win3_1.index t (1 : Fin 2) * 40 + 1 * k.val = k.val; rw [e3]; omega
  show k3_pay1 (iblk3 V c 0 t) (iblk3 V c 1 t) (ix2 p q) = biasLsm (V c main_v59) (V c main_v60) (((cfg3.win 2).blk t).view.emb (ix2 p q))
  refine (pay_apply _ _ p q).trans ?_
  rw [hemb2, biasLsm_apply]
  refine congrArg (fun f => rowLsm f q) (funext fun k => ?_)
  have r0 : (iblk3 V c 0 t : S5000x40.Idx → EReal) (ix2 p k) = (V c main_v59 : S100000x40.Idx → EReal) (ix2 (⟨5000 * t.val + p.val, by omega⟩ : Fin 100000) k) := by
    show (V c main_v59 : S100000x40.Idx → EReal) (((cfg3.win 0).blk t).view.emb (ix2 p k)) = _
    rw [hemb0 k]
  have r1 : (iblk3 V c 1 t : S1x40.Idx → EReal) (ix2 (0 : Fin 1) k) = (V c main_v60 : S1x40.Idx → EReal) (ix2 (0 : Fin 1) k) := by
    show (V c main_v60 : S1x40.Idx → EReal) (((cfg3.win 1).blk t).view.emb (ix2 (0 : Fin 1) k)) = _
    rw [hemb1 k]
  rw [r0, r1]

/-- An index of the array is in point t's block iff each coordinate is in the block's range on its axis. -/
theorem mem_blk3 (t : Fin cfg3.N) (i : S100000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v61).slice (win3_2.rect t)).set ↔ _
  rw [View.set_slice_whole, Rect.mem_set_unit]
  exact Iff.rfl

/-- Row r lies in the block of point r / 5000. -/
theorem cover3 (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 20 := N_3
  let t : Fin cfg3.N := ⟨(i 0).val / 5000, by rw [hN]; omega⟩
  obtain ⟨e0, e1, e2, e3, e4, e5⟩ := idx3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; rw [e4]; show (i 0).val / 5000 * 5000 ≤ (i 0).val ∧ (i 0).val < (i 0).val / 5000 * 5000 + 5000; omega
  | ⟨1, _⟩ => show win3_2.index t (1 : Fin 2) * 40 ≤ (i 1).val ∧ (i 1).val < win3_2.index t (1 : Fin 2) * 40 + 40; rw [e5]; omega

/-- THE OUTPUT ARRAY after region 3: the bias added along the rows and the reference's log-softmax, of the two input
    arrays as the region finds them. -/
theorem arr3 (V : (c : Dev nD) → (b : Ref sig .tc) → Buf (Elt Ideal) ((c : Thread nD τ).loc b)) (c : Dev nD) :
    (dat3 (F := Ideal) V c).arrAt 2 cfg3.N = lsmRef (addf (V c main_v59) (broadcastInDim Cert.ReferenceIdeal.S100000x40 ![0, 1]
      Cert.ReferenceIdeal.Facts₀.bcast_S1x40_S100000x40_0_1 (V c main_v60))) :=
  (dat3 V c).arrAt_eq_of_cover 2 (biasLsm (V c main_v59) (V c main_v60)) (fun t _ => flushed3_eq V c t) cover3

end Cert.KernelIdeal.Hand

end
-- ==== Proof.KernelHost.lean ====
/- What the kernel program's five stretches of host operations compute, each read at the buffers the regions and the
   later stretches take, as the reference program's own terms: for an arbitrary valuation of the buffers at the
   stretch's entry, with what the stretch reads given as hypotheses. -/
import proofs.«151575_j70789650972705_1_alg».proof.Proof.Gen.KernelIdeal.Frame
import proofs.«151575_j70789650972705_1_alg».proof.Proof.RefReadP
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

/-- Reads a fold of host operations at one buffer: each operation's result at its own buffer is its function's value, at
    any other buffer what was there. -/
local macro "kh_results" : tactic =>
  `(tactic| ((try after_results_simp)
             repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- A buffer none of the listed operations writes keeps its contents. -/
local macro "kh_kept" : tactic =>
  `(tactic| (refine StableHlo.after_of_forall_not_mem _ _ (List.forall_iff_forall_mem.mp ?_)
             simp only [hostOps0, hostOps0_1, hostOps0_2, hostOps1, hostOps3, List.Forall, StableHlo.nullary_writes, StableHlo.unary_writes, StableHlo.binary_writes,
               StableHlo.ternary_writes, StableHlo.quaternary_writes, StableHlo.reshape_writes, Finset.mem_singleton]
             repeat' apply And.intro
             all_goals exact StableHlo.devRef_ne_of_ne (by decide)))

variable (X : Valuation τ sig (Elt Ideal))

/-! ## The first stretch: the two edge lists with the self loops appended, and the in-degrees' test and inverse square root -/

/-- The source list with the self loops appended. -/
theorem host0_v3 : after (hostOps0 (F := Ideal)) X (Proc.devRef .tc main_v3)
    = Cert.ReferenceIdeal.ReadP.val_main_v4 (F := Ideal) (X (Proc.devRef .tc main_arg1)) := by
  dsimp only [hostOps0]
  kh_results
  (try rfl)

/-- The destination list with the self loops appended. -/
theorem host0_v6 : after (hostOps0 (F := Ideal)) X (Proc.devRef .tc main_v6)
    = Cert.ReferenceIdeal.ReadP.val_main_v7 (F := Ideal) (X (Proc.devRef .tc main_arg1)) := by
  dsimp only [hostOps0]
  kh_results
  (try rfl)

/-- Which nodes have a positive in-degree. -/
theorem host0_v12 : after (hostOps0 (F := Ideal)) X (Proc.devRef .tc main_v12)
    = Cert.ReferenceIdeal.ReadP.val_main_v13 (F := Ideal) (X (Proc.devRef .tc main_arg1)) := by
  dsimp only [hostOps0]
  kh_results
  (try rfl)

/-- The inverse square roots of the in-degrees. -/
theorem host0_v13 : after (hostOps0 (F := Ideal)) X (Proc.devRef .tc main_v13)
    = Cert.ReferenceIdeal.ReadP.val_main_v14 (F := Ideal) (X (Proc.devRef .tc main_arg1)) := by
  dsimp only [hostOps0]
  kh_results
  (try rfl)

/-- The zero the selection below falls back to. -/
theorem host0_cst_2 : after (hostOps0 (F := Ideal)) X (Proc.devRef .tc main_cst_2)
    = Cert.ReferenceIdeal.ReadP.val_main_cst_2 (F := Ideal) := by
  dsimp only [hostOps0]
  kh_results
  (try rfl)

/-- The stretch writes none of the argument arrays. -/
theorem host0_kept_arg0 : after (hostOps0 (F := Ideal)) X (Proc.devRef .tc main_arg0) = X (Proc.devRef .tc main_arg0) := by kh_kept
theorem host0_kept_arg1 : after (hostOps0 (F := Ideal)) X (Proc.devRef .tc main_arg1) = X (Proc.devRef .tc main_arg1) := by kh_kept
theorem host0_kept_arg2 : after (hostOps0 (F := Ideal)) X (Proc.devRef .tc main_arg2) = X (Proc.devRef .tc main_arg2) := by kh_kept
theorem host0_kept_arg3 : after (hostOps0 (F := Ideal)) X (Proc.devRef .tc main_arg3) = X (Proc.devRef .tc main_arg3) := by kh_kept
theorem host0_kept_arg4 : after (hostOps0 (F := Ideal)) X (Proc.devRef .tc main_arg4) = X (Proc.devRef .tc main_arg4) := by kh_kept
theorem host0_kept_arg5 : after (hostOps0 (F := Ideal)) X (Proc.devRef .tc main_arg5) = X (Proc.devRef .tc main_arg5) := by kh_kept

/-! ## The second stretch: the normalisation factor of each node (zero where the in-degree is zero) -/

/-- The factor of each node, from the test, the inverse square roots and the zero the first stretch left. -/
theorem host0_1_v14 (x1 : (⟨Cert.ReferenceIdeal.S2x3200000, .i32⟩ : BufTy).Contents (Elt Ideal))
    (h12 : X (Proc.devRef .tc main_v12) = Cert.ReferenceIdeal.ReadP.val_main_v13 (F := Ideal) x1)
    (h13 : X (Proc.devRef .tc main_v13) = Cert.ReferenceIdeal.ReadP.val_main_v14 (F := Ideal) x1)
    (hc : X (Proc.devRef .tc main_cst_2) = Cert.ReferenceIdeal.ReadP.val_main_cst_2 (F := Ideal)) :
    after (hostOps0_1 (F := Ideal)) X (Proc.devRef .tc main_v14) = Cert.ReferenceIdeal.ReadP.val_main_v15 (F := Ideal) x1 := by
  dsimp only [hostOps0_1]
  kh_results
  simp only [StableHlo.TRef.toBuf, StableHlo.TRef.ofBuf, cast_eq]
  rw [h12, h13, hc]
  rfl

/-- The stretch writes neither edge list nor any argument array. -/
theorem host0_1_kept_v3 : after (hostOps0_1 (F := Ideal)) X (Proc.devRef .tc main_v3) = X (Proc.devRef .tc main_v3) := by kh_kept
theorem host0_1_kept_v6 : after (hostOps0_1 (F := Ideal)) X (Proc.devRef .tc main_v6) = X (Proc.devRef .tc main_v6) := by kh_kept
theorem host0_1_kept_arg0 : after (hostOps0_1 (F := Ideal)) X (Proc.devRef .tc main_arg0) = X (Proc.devRef .tc main_arg0) := by kh_kept
theorem host0_1_kept_arg1 : after (hostOps0_1 (F := Ideal)) X (Proc.devRef .tc main_arg1) = X (Proc.devRef .tc main_arg1) := by kh_kept
theorem host0_1_kept_arg2 : after (hostOps0_1 (F := Ideal)) X (Proc.devRef .tc main_arg2) = X (Proc.devRef .tc main_arg2) := by kh_kept
theorem host0_1_kept_arg3 : after (hostOps0_1 (F := Ideal)) X (Proc.devRef .tc main_arg3) = X (Proc.devRef .tc main_arg3) := by kh_kept
theorem host0_1_kept_arg4 : after (hostOps0_1 (F := Ideal)) X (Proc.devRef .tc main_arg4) = X (Proc.devRef .tc main_arg4) := by kh_kept
theorem host0_1_kept_arg5 : after (hostOps0_1 (F := Ideal)) X (Proc.devRef .tc main_arg5) = X (Proc.devRef .tc main_arg5) := by kh_kept

/-! ## The third stretch: the weight of each edge, the product of its two end nodes' factors -/

/-- The edge weights, from the two edge lists and the nodes' factors. -/
theorem host0_2_v29 (x1 : (⟨Cert.ReferenceIdeal.S2x3200000, .i32⟩ : BufTy).Contents (Elt Ideal))
    (h3 : X (Proc.devRef .tc main_v3) = Cert.ReferenceIdeal.ReadP.val_main_v4 (F := Ideal) x1)
    (h6 : X (Proc.devRef .tc main_v6) = Cert.ReferenceIdeal.ReadP.val_main_v7 (F := Ideal) x1)
    (h14 : X (Proc.devRef .tc main_v14) = Cert.ReferenceIdeal.ReadP.val_main_v15 (F := Ideal) x1) :
    after (hostOps0_2 (F := Ideal)) X (Proc.devRef .tc main_v29) = Cert.ReferenceIdeal.ReadP.val_main_v30 (F := Ideal) x1 := by
  dsimp only [hostOps0_2]
  kh_results
  rw [h3, h6, h14]
  rfl

/-- The stretch writes neither edge list nor any argument array. -/
theorem host0_2_kept_v3 : after (hostOps0_2 (F := Ideal)) X (Proc.devRef .tc main_v3) = X (Proc.devRef .tc main_v3) := by kh_kept
theorem host0_2_kept_v6 : after (hostOps0_2 (F := Ideal)) X (Proc.devRef .tc main_v6) = X (Proc.devRef .tc main_v6) := by kh_kept
theorem host0_2_kept_arg0 : after (hostOps0_2 (F := Ideal)) X (Proc.devRef .tc main_arg0) = X (Proc.devRef .tc main_arg0) := by kh_kept
theorem host0_2_kept_arg1 : after (hostOps0_2 (F := Ideal)) X (Proc.devRef .tc main_arg1) = X (Proc.devRef .tc main_arg1) := by kh_kept
theorem host0_2_kept_arg2 : after (hostOps0_2 (F := Ideal)) X (Proc.devRef .tc main_arg2) = X (Proc.devRef .tc main_arg2) := by kh_kept
theorem host0_2_kept_arg3 : after (hostOps0_2 (F := Ideal)) X (Proc.devRef .tc main_arg3) = X (Proc.devRef .tc main_arg3) := by kh_kept
theorem host0_2_kept_arg4 : after (hostOps0_2 (F := Ideal)) X (Proc.devRef .tc main_arg4) = X (Proc.devRef .tc main_arg4) := by kh_kept
theorem host0_2_kept_arg5 : after (hostOps0_2 (F := Ideal)) X (Proc.devRef .tc main_arg5) = X (Proc.devRef .tc main_arg5) := by kh_kept

/-! ## A vector cast to one row against the vector laid along the row's axis -/

/-- A vector of n entries reshaped to [1,n] is the vector broadcast along axis 1 of [1,n]: entry (0, q) of either is entry q. -/
theorem shapeCast_row_eq_broadcastInDim {α : Type} {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  obtain ⟨r, q, rfl⟩ : ∃ (r : Fin 1) (q : Fin n), i = ix2 r q := ⟨i 0, i 1, eq_ix2 i⟩
  have hr : r = 0 := Subsingleton.elim _ _
  subst hr
  have e2 := shapeCast_apply x h1 (ix2 (0 : Fin 1) q) (ix1 q) (by
    rw [Shape.rowMajor_val_two, Shape.rowMajor_val_one]; show q.val = 0 * n + q.val; omega)
  have e3 := broadcastInDim_apply ![1] hd x (ix2 (0 : Fin 1) q) (ix1 q) (by
    intro a
    match a with
    | ⟨0, _⟩ =>
      show q.val = if n = 1 then 0 else q.val
      split
      · have := q.isLt; omega
      · rfl)
  exact e2.trans e3.symm

/-! ## The fourth stretch (before region 1): the first layer's products gathered along the edges, weighted, and summed into the nodes; the bias as one row -/

/-- The weighted sum over each node's incoming edges of the first product's rows. -/
theorem host1_v43 (x0 : (⟨Cert.ReferenceIdeal.S100000x512, .f32⟩ : BufTy).Contents (Elt Ideal)) (x1 : (⟨Cert.ReferenceIdeal.S2x3200000, .i32⟩ : BufTy).Contents (Elt Ideal)) (x2 : (⟨Cert.ReferenceIdeal.S512x16, .f32⟩ : BufTy).Contents (Elt Ideal))
    (h3 : X (Proc.devRef .tc main_v3) = Cert.ReferenceIdeal.ReadP.val_main_v4 (F := Ideal) x1)
    (h6 : X (Proc.devRef .tc main_v6) = Cert.ReferenceIdeal.ReadP.val_main_v7 (F := Ideal) x1)
    (h29 : X (Proc.devRef .tc main_v29) = Cert.ReferenceIdeal.ReadP.val_main_v30 (F := Ideal) x1)
    (h30 : X (Proc.devRef .tc main_v30) = Cert.ReferenceIdeal.ReadP.val_main_v0 (F := Ideal) x0 x2) :
    after (hostOps1 (F := Ideal)) X (Proc.devRef .tc main_v43) = Cert.ReferenceIdeal.ReadP.val_main_v43 (F := Ideal) x0 x1 x2 := by
  dsimp only [hostOps1]
  kh_results
  rw [h3, h6, h29, h30]
  rfl

/-- The first bias as one row. -/
theorem host1_v44 : after (hostOps1 (F := Ideal)) X (Proc.devRef .tc main_v44)
    = Cert.ReferenceIdeal.ReadP.val_main_v44 (F := Ideal) (X (Proc.devRef .tc main_arg3)) := by
  dsimp only [hostOps1]
  kh_results
  exact shapeCast_row_eq_broadcastInDim (n := 16) _ _ _

/-- The stretch writes neither edge list, nor the edge weights, nor the second layer's arguments. -/
theorem host1_kept_v3 : after (hostOps1 (F := Ideal)) X (Proc.devRef .tc main_v3) = X (Proc.devRef .tc main_v3) := by kh_kept
theorem host1_kept_v6 : after (hostOps1 (F := Ideal)) X (Proc.devRef .tc main_v6) = X (Proc.devRef .tc main_v6) := by kh_kept
theorem host1_kept_v29 : after (hostOps1 (F := Ideal)) X (Proc.devRef .tc main_v29) = X (Proc.devRef .tc main_v29) := by kh_kept
theorem host1_kept_arg4 : after (hostOps1 (F := Ideal)) X (Proc.devRef .tc main_arg4) = X (Proc.devRef .tc main_arg4) := by kh_kept
theorem host1_kept_arg5 : after (hostOps1 (F := Ideal)) X (Proc.devRef .tc main_arg5) = X (Proc.devRef .tc main_arg5) := by kh_kept

/-! ## The reference recomputes the edge lists and the edge weights for its second layer: the same terms under new names -/

theorem ref_v52_eq (x1 : (⟨Cert.ReferenceIdeal.S2x3200000, .i32⟩ : BufTy).Contents (Elt Ideal)) : Cert.ReferenceIdeal.ReadP.val_main_v52 (F := Ideal) x1 = Cert.ReferenceIdeal.ReadP.val_main_v4 (F := Ideal) x1 := rfl
theorem ref_v55_eq (x1 : (⟨Cert.ReferenceIdeal.S2x3200000, .i32⟩ : BufTy).Contents (Elt Ideal)) : Cert.ReferenceIdeal.ReadP.val_main_v55 (F := Ideal) x1 = Cert.ReferenceIdeal.ReadP.val_main_v7 (F := Ideal) x1 := rfl
theorem ref_v63_eq (x1 : (⟨Cert.ReferenceIdeal.S2x3200000, .i32⟩ : BufTy).Contents (Elt Ideal)) : Cert.ReferenceIdeal.ReadP.val_main_v63 (F := Ideal) x1 = Cert.ReferenceIdeal.ReadP.val_main_v15 (F := Ideal) x1 := rfl
theorem ref_v78_eq (x1 : (⟨Cert.ReferenceIdeal.S2x3200000, .i32⟩ : BufTy).Contents (Elt Ideal)) : Cert.ReferenceIdeal.ReadP.val_main_v78 (F := Ideal) x1 = Cert.ReferenceIdeal.ReadP.val_main_v30 (F := Ideal) x1 := rfl

/-! ## The fifth stretch (before region 3): the second layer's products gathered, weighted and summed; the bias as one row -/

/-- The weighted sum over each node's incoming edges of the second product's rows. -/
theorem host3_v59 (x0 : (⟨Cert.ReferenceIdeal.S100000x512, .f32⟩ : BufTy).Contents (Elt Ideal)) (x1 : (⟨Cert.ReferenceIdeal.S2x3200000, .i32⟩ : BufTy).Contents (Elt Ideal)) (x2 : (⟨Cert.ReferenceIdeal.S512x16, .f32⟩ : BufTy).Contents (Elt Ideal)) (x3 : (⟨Cert.ReferenceIdeal.S16, .f32⟩ : BufTy).Contents (Elt Ideal)) (x4 : (⟨Cert.ReferenceIdeal.S16x40, .f32⟩ : BufTy).Contents (Elt Ideal))
    (h3 : X (Proc.devRef .tc main_v3) = Cert.ReferenceIdeal.ReadP.val_main_v52 (F := Ideal) x1)
    (h6 : X (Proc.devRef .tc main_v6) = Cert.ReferenceIdeal.ReadP.val_main_v55 (F := Ideal) x1)
    (h29 : X (Proc.devRef .tc main_v29) = Cert.ReferenceIdeal.ReadP.val_main_v78 (F := Ideal) x1)
    (h46 : X (Proc.devRef .tc main_v46) = Cert.ReferenceIdeal.ReadP.val_main_v48 (F := Ideal) x0 x1 x2 x3 x4) :
    after (hostOps3 (F := Ideal)) X (Proc.devRef .tc main_v59) = Cert.ReferenceIdeal.ReadP.val_main_v91 (F := Ideal) x0 x1 x2 x3 x4 := by
  dsimp only [hostOps3]
  kh_results
  rw [h3, h6, h29, h46]
  rfl

/-- The second bias as one row. -/
theorem host3_v60 : after (hostOps3 (F := Ideal)) X (Proc.devRef .tc main_v60)
    = Cert.ReferenceIdeal.ReadP.val_main_v92 (F := Ideal) (X (Proc.devRef .tc main_arg5)) := by
  dsimp only [hostOps3]
  kh_results
  exact shapeCast_row_eq_broadcastInDim (n := 40) _ _ _

end Cert.KernelIdeal.Hand

end
-- ==== Proof.Bridge.lean ====
/-
  The idealized kernel program's result array is the reference's composed function of the arguments.

  The buffer contents at the nine segment boundaries of @main are followed from the launch memory.  Before the first
  region the host computes the source and destination node arrays (the edge list's two rows, each followed by the self
  loops), the degrees, their inverse square roots where the degree is positive, and the per-edge normalisation; these
  stay in their buffers to the end, no later segment writes them.  Region 0 leaves x · W1; the host gathers its rows at
  the sources, scales them by the normalisation and scatter-adds them at the destinations; region 1 adds the bias and
  takes the positive part; region 2 multiplies by W2; the host aggregates again; region 3 adds the bias and takes the
  log-softmax of every row.  At each boundary the array is the reference's array of the same stage.
-/
import proofs.«151575_j70789650972705_1_alg».proof.Proof.Gen.KernelIdeal.Frame
import proofs.«151575_j70789650972705_1_alg».proof.Proof.RefReadP
import proofs.«151575_j70789650972705_1_alg».proof.Proof.Region1
import proofs.«151575_j70789650972705_1_alg».proof.Proof.RegionMatmul
import proofs.«151575_j70789650972705_1_alg».proof.Proof.RegionLogSoftmax
import proofs.«151575_j70789650972705_1_alg».proof.Proof.KernelHost
import Idealize.ShloMosaic.Lib.StableHlo.Run

set_option maxRecDepth 65536

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first host stretch: the node arrays of the edges, the degree test and the inverse square roots -/

theorem W1_v3 : W1 m ρ c (Proc.devRef .tc main_v3) = Cert.ReferenceIdeal.ReadP.val_main_v4 (F := Ideal) (m ((c : Thread nD τ).loc main_arg1)) := host0_v3 (W0 m ρ c)
theorem W1_v6 : W1 m ρ c (Proc.devRef .tc main_v6) = Cert.ReferenceIdeal.ReadP.val_main_v7 (F := Ideal) (m ((c : Thread nD τ).loc main_arg1)) := host0_v6 (W0 m ρ c)
theorem W1_v12 : W1 m ρ c (Proc.devRef .tc main_v12) = Cert.ReferenceIdeal.ReadP.val_main_v13 (F := Ideal) (m ((c : Thread nD τ).loc main_arg1)) := host0_v12 (W0 m ρ c)
theorem W1_v13 : W1 m ρ c (Proc.devRef .tc main_v13) = Cert.ReferenceIdeal.ReadP.val_main_v14 (F := Ideal) (m ((c : Thread nD τ).loc main_arg1)) := host0_v13 (W0 m ρ c)
theorem W1_cst_2 : W1 m ρ c (Proc.devRef .tc main_cst_2) = Cert.ReferenceIdeal.ReadP.val_main_cst_2 (F := Ideal) := host0_cst_2 (W0 m ρ c)
theorem W1_arg0 : W1 m ρ c (Proc.devRef .tc main_arg0) = (m ((c : Thread nD τ).loc main_arg0)) := host0_kept_arg0 (W0 m ρ c)
theorem W1_arg2 : W1 m ρ c (Proc.devRef .tc main_arg2) = (m ((c : Thread nD τ).loc main_arg2)) := host0_kept_arg2 (W0 m ρ c)
theorem W1_arg3 : W1 m ρ c (Proc.devRef .tc main_arg3) = (m ((c : Thread nD τ).loc main_arg3)) := host0_kept_arg3 (W0 m ρ c)
theorem W1_arg4 : W1 m ρ c (Proc.devRef .tc main_arg4) = (m ((c : Thread nD τ).loc main_arg4)) := host0_kept_arg4 (W0 m ρ c)
theorem W1_arg5 : W1 m ρ c (Proc.devRef .tc main_arg5) = (m ((c : Thread nD τ).loc main_arg5)) := host0_kept_arg5 (W0 m ρ c)

/-! ## After the selection of the inverse square roots -/

theorem W2_v14 : W2 m ρ c (Proc.devRef .tc main_v14) = Cert.ReferenceIdeal.ReadP.val_main_v15 (F := Ideal) (m ((c : Thread nD τ).loc main_arg1)) :=
  host0_1_v14 (W1 m ρ c) _ (W1_v12 m ρ c) (W1_v13 m ρ c) (W1_cst_2 m ρ c)
theorem W2_v3 : W2 m ρ c (Proc.devRef .tc main_v3) = Cert.ReferenceIdeal.ReadP.val_main_v4 (F := Ideal) (m ((c : Thread nD τ).loc main_arg1)) := (host0_1_kept_v3 (W1 m ρ c)).trans (W1_v3 m ρ c)
theorem W2_v6 : W2 m ρ c (Proc.devRef .tc main_v6) = Cert.ReferenceIdeal.ReadP.val_main_v7 (F := Ideal) (m ((c : Thread nD τ).loc main_arg1)) := (host0_1_kept_v6 (W1 m ρ c)).trans (W1_v6 m ρ c)
theorem W2_arg0 : W2 m ρ c (Proc.devRef .tc main_arg0) = (m ((c : Thread nD τ).loc main_arg0)) := (host0_1_kept_arg0 (W1 m ρ c)).trans (W1_arg0 m ρ c)
theorem W2_arg2 : W2 m ρ c (Proc.devRef .tc main_arg2) = (m ((c : Thread nD τ).loc main_arg2)) := (host0_1_kept_arg2 (W1 m ρ c)).trans (W1_arg2 m ρ c)
theorem W2_arg3 : W2 m ρ c (Proc.devRef .tc main_arg3) = (m ((c : Thread nD τ).loc main_arg3)) := (host0_1_kept_arg3 (W1 m ρ c)).trans (W1_arg3 m ρ c)
theorem W2_arg4 : W2 m ρ c (Proc.devRef .tc main_arg4) = (m ((c : Thread nD τ).loc main_arg4)) := (host0_1_kept_arg4 (W1 m ρ c)).trans (W1_arg4 m ρ c)
theorem W2_arg5 : W2 m ρ c (Proc.devRef .tc main_arg5) = (m ((c : Thread nD τ).loc main_arg5)) := (host0_1_kept_arg5 (W1 m ρ c)).trans (W1_arg5 m ρ c)

/-! ## At region 0's entry: the per-edge normalisation -/

theorem W3_v29 : W3 m ρ c (Proc.devRef .tc main_v29) = Cert.ReferenceIdeal.ReadP.val_main_v30 (F := Ideal) (m ((c : Thread nD τ).loc main_arg1)) :=
  host0_2_v29 (W2 m ρ c) _ (W2_v3 m ρ c) (W2_v6 m ρ c) (W2_v14 m ρ c)
theorem W3_v3 : W3 m ρ c (Proc.devRef .tc main_v3) = Cert.ReferenceIdeal.ReadP.val_main_v4 (F := Ideal) (m ((c : Thread nD τ).loc main_arg1)) := (host0_2_kept_v3 (W2 m ρ c)).trans (W2_v3 m ρ c)
theorem W3_v6 : W3 m ρ c (Proc.devRef .tc main_v6) = Cert.ReferenceIdeal.ReadP.val_main_v7 (F := Ideal) (m ((c : Thread nD τ).loc main_arg1)) := (host0_2_kept_v6 (W2 m ρ c)).trans (W2_v6 m ρ c)
theorem W3_arg0 : W3 m ρ c (Proc.devRef .tc main_arg0) = (m ((c : Thread nD τ).loc main_arg0)) := (host0_2_kept_arg0 (W2 m ρ c)).trans (W2_arg0 m ρ c)
theorem W3_arg2 : W3 m ρ c (Proc.devRef .tc main_arg2) = (m ((c : Thread nD τ).loc main_arg2)) := (host0_2_kept_arg2 (W2 m ρ c)).trans (W2_arg2 m ρ c)
theorem W3_arg3 : W3 m ρ c (Proc.devRef .tc main_arg3) = (m ((c : Thread nD τ).loc main_arg3)) := (host0_2_kept_arg3 (W2 m ρ c)).trans (W2_arg3 m ρ c)
theorem W3_arg4 : W3 m ρ c (Proc.devRef .tc main_arg4) = (m ((c : Thread nD τ).loc main_arg4)) := (host0_2_kept_arg4 (W2 m ρ c)).trans (W2_arg4 m ρ c)
theorem W3_arg5 : W3 m ρ c (Proc.devRef .tc main_arg5) = (m ((c : Thread nD τ).loc main_arg5)) := (host0_2_kept_arg5 (W2 m ρ c)).trans (W2_arg5 m ρ c)

/-! ## Region 0: the first matrix product -/

theorem W4_v30 : W4 m ρ c (Proc.devRef .tc main_v30) = Cert.ReferenceIdeal.ReadP.val_main_v0 (F := Ideal) (m ((c : Thread nD τ).loc main_arg0)) (m ((c : Thread nD τ).loc main_arg2)) := by
  refine (W4_arr m ρ c 2).trans ?_
  rw [arr0 (V3 m ρ) c]
  dsimp only [V3]
  rw [W3_arg0, W3_arg2]
  rfl
theorem W4_v3 : W4 m ρ c (Proc.devRef .tc main_v3) = Cert.ReferenceIdeal.ReadP.val_main_v4 (F := Ideal) (m ((c : Thread nD τ).loc main_arg1)) := (W4_of_ne m ρ c main_v3 (by decide)).trans (W3_v3 m ρ c)
theorem W4_v6 : W4 m ρ c (Proc.devRef .tc main_v6) = Cert.ReferenceIdeal.ReadP.val_main_v7 (F := Ideal) (m ((c : Thread nD τ).loc main_arg1)) := (W4_of_ne m ρ c main_v6 (by decide)).trans (W3_v6 m ρ c)
theorem W4_v29 : W4 m ρ c (Proc.devRef .tc main_v29) = Cert.ReferenceIdeal.ReadP.val_main_v30 (F := Ideal) (m ((c : Thread nD τ).loc main_arg1)) := (W4_of_ne m ρ c main_v29 (by decide)).trans (W3_v29 m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)

/-! ## The first aggregation and the bias row -/

theorem W5_v43 : W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg2)) :=
  host1_v43 (W4 m ρ c) _ _ _ (W4_v3 m ρ c) (W4_v6 m ρ c) (W4_v29 m ρ c) (W4_v30 m ρ c)
theorem W5_v44 : W5 m ρ c (Proc.devRef .tc main_v44) = Cert.ReferenceIdeal.ReadP.val_main_v44 (F := Ideal) (m ((c : Thread nD τ).loc main_arg3)) := by
  rw [← W4_arg3 m ρ c]; exact host1_v44 (W4 m ρ c)
theorem W5_v3 : W5 m ρ c (Proc.devRef .tc main_v3) = Cert.ReferenceIdeal.ReadP.val_main_v4 (F := Ideal) (m ((c : Thread nD τ).loc main_arg1)) := (host1_kept_v3 (W4 m ρ c)).trans (W4_v3 m ρ c)
theorem W5_v6 : W5 m ρ c (Proc.devRef .tc main_v6) = Cert.ReferenceIdeal.ReadP.val_main_v7 (F := Ideal) (m ((c : Thread nD τ).loc main_arg1)) := (host1_kept_v6 (W4 m ρ c)).trans (W4_v6 m ρ c)
theorem W5_v29 : W5 m ρ c (Proc.devRef .tc main_v29) = Cert.ReferenceIdeal.ReadP.val_main_v30 (F := Ideal) (m ((c : Thread nD τ).loc main_arg1)) := (host1_kept_v29 (W4 m ρ c)).trans (W4_v29 m ρ c)
theorem W5_arg4 : W5 m ρ c (Proc.devRef .tc main_arg4) = (m ((c : Thread nD τ).loc main_arg4)) := (host1_kept_arg4 (W4 m ρ c)).trans (W4_arg4 m ρ c)
theorem W5_arg5 : W5 m ρ c (Proc.devRef .tc main_arg5) = (m ((c : Thread nD τ).loc main_arg5)) := (host1_kept_arg5 (W4 m ρ c)).trans (W4_arg5 m ρ c)

/-! ## Region 1: bias and positive part -/

theorem W6_v45 : W6 m ρ c (Proc.devRef .tc main_v45) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  rw [arr1 (V5 m ρ) c]
  dsimp only [V5]
  rw [W5_v43, W5_v44]
  rfl
theorem W6_v3 : W6 m ρ c (Proc.devRef .tc main_v3) = Cert.ReferenceIdeal.ReadP.val_main_v4 (F := Ideal) (m ((c : Thread nD τ).loc main_arg1)) := (W6_of_ne m ρ c main_v3 (by decide)).trans (W5_v3 m ρ c)
theorem W6_v6 : W6 m ρ c (Proc.devRef .tc main_v6) = Cert.ReferenceIdeal.ReadP.val_main_v7 (F := Ideal) (m ((c : Thread nD τ).loc main_arg1)) := (W6_of_ne m ρ c main_v6 (by decide)).trans (W5_v6 m ρ c)
theorem W6_v29 : W6 m ρ c (Proc.devRef .tc main_v29) = Cert.ReferenceIdeal.ReadP.val_main_v30 (F := Ideal) (m ((c : Thread nD τ).loc main_arg1)) := (W6_of_ne m ρ c main_v29 (by decide)).trans (W5_v29 m ρ c)
theorem W6_arg4 : W6 m ρ c (Proc.devRef .tc main_arg4) = (m ((c : Thread nD τ).loc main_arg4)) := (W6_of_ne m ρ c main_arg4 (by decide)).trans (W5_arg4 m ρ c)
theorem W6_arg5 : W6 m ρ c (Proc.devRef .tc main_arg5) = (m ((c : Thread nD τ).loc main_arg5)) := (W6_of_ne m ρ c main_arg5 (by decide)).trans (W5_arg5 m ρ c)

/-! ## Region 2: the second matrix product -/

theorem W7_v46 : W7 m ρ c (Proc.devRef .tc main_v46) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  rw [arr2 (V6 m ρ) c]
  dsimp only [V6]
  rw [W6_v45, W6_arg4]
  rfl
theorem W7_v3 : W7 m ρ c (Proc.devRef .tc main_v3) = Cert.ReferenceIdeal.ReadP.val_main_v4 (F := Ideal) (m ((c : Thread nD τ).loc main_arg1)) := (W7_of_ne m ρ c main_v3 (by decide)).trans (W6_v3 m ρ c)
theorem W7_v6 : W7 m ρ c (Proc.devRef .tc main_v6) = Cert.ReferenceIdeal.ReadP.val_main_v7 (F := Ideal) (m ((c : Thread nD τ).loc main_arg1)) := (W7_of_ne m ρ c main_v6 (by decide)).trans (W6_v6 m ρ c)
theorem W7_v29 : W7 m ρ c (Proc.devRef .tc main_v29) = Cert.ReferenceIdeal.ReadP.val_main_v30 (F := Ideal) (m ((c : Thread nD τ).loc main_arg1)) := (W7_of_ne m ρ c main_v29 (by decide)).trans (W6_v29 m ρ c)
theorem W7_arg5 : W7 m ρ c (Proc.devRef .tc main_arg5) = (m ((c : Thread nD τ).loc main_arg5)) := (W7_of_ne m ρ c main_arg5 (by decide)).trans (W6_arg5 m ρ c)

/-! ## The second aggregation and the bias row -/

theorem W8_v59 : W8 m ρ c (Proc.devRef .tc main_v59) = Cert.ReferenceIdeal.ReadP.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  host3_v59 (W7 m ρ c) _ _ _ _ _ ((W7_v3 m ρ c).trans (ref_v52_eq _).symm) ((W7_v6 m ρ c).trans (ref_v55_eq _).symm)
    ((W7_v29 m ρ c).trans (ref_v78_eq _).symm) (W7_v46 m ρ c)
theorem W8_v60 : W8 m ρ c (Proc.devRef .tc main_v60) = Cert.ReferenceIdeal.ReadP.val_main_v92 (F := Ideal) (m ((c : Thread nD τ).loc main_arg5)) := by
  rw [← W7_arg5 m ρ c]; exact host3_v60 (W7 m ρ c)

/-! ## Region 3: bias and log-softmax — the result -/

/-- The result buffer after the last region is the reference's result as a function of the six arguments. -/
theorem result_eq : W9 m ρ c (Proc.devRef .tc main_v61)
    = Cert.ReferenceIdeal.ReadP.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  rw [arr3 (V8 m ρ) c]
  dsimp only [V8]
  rw [W8_v59, W8_v60]
  rfl

end Cert.KernelIdeal.Hand

end
-- ==== Proof.RefRun.lean ====
/-
  The reference program's run, read stage by stage: its 138 host operations are cut into short consecutive stages, each
  stage's result buffers are read, for ANY buffer contents the stage starts from, as the reference's own value
  functions of the six arguments, and the stages are chained from the launch contents to the returned array.
-/
import proofs.«151575_j70789650972705_1_alg».proof.Proof.RefReadP
import Idealize.ShloMosaic.Lib.StableHlo.Run

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- Operations i, …, i + n − 1 of the reference. -/
abbrev seg (i n : Nat) : List (HloOp τ sig (Elt Ideal)) := ((ValueP.ops (F := Ideal)).drop i).take n

/-- Reads a literal stretch of host operations at a result buffer: each operation's result at its own buffer is its
    function's value, at any other buffer what was there. -/
macro "host_results" : tactic =>
  `(tactic| ((try after_results_simp)
             repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- Spells a stage of the reference's operations out as the literal list. -/
macro "stage_ops" : tactic =>
  `(tactic| simp only [seg, ValueP.ops, List.drop_succ_cons, List.drop_zero, List.take_succ_cons, List.take_zero])

/-- Reads a stage of the reference's operations at one buffer; the typed references' transports along their (reflexive)
    type equations are removed. -/
macro "read_stage" : tactic =>
  `(tactic| (stage_ops; host_results; (try simp only [TRef.toBuf, TRef.ofBuf, cast_eq])))

/-- Two stretches run one after the other: the second from what the first leaves. -/
theorem after_append {τ : Topo} {sig : RefSig} {Val : EltTy → Type} (l₁ l₂ : List (HloOp τ sig Val)) (X : Valuation τ sig Val) :
    after (l₁ ++ l₂) X = after l₂ (after l₁ X) := by
  induction l₁ generalizing X with
  | nil => rfl
  | cons op l ih => rw [List.cons_append, after_cons, after_cons, ih]

/-- A stretch cut after its first n operations. -/
theorem after_take_drop {τ : Topo} {sig : RefSig} {Val : EltTy → Type} (l : List (HloOp τ sig Val)) (n : Nat) (X : Valuation τ sig Val) :
    after l X = after (l.drop n) (after (l.take n) X) := by
  conv_lhs => rw [← List.take_append_drop n l]
  exact after_append _ _ _

/-! ## The stages, each from ANY buffer contents -/

section Stages

variable {a0 : (⟨S100000x512, .f32⟩ : BufTy).Contents (Elt Ideal)} {a1 : (⟨S2x3200000, .i32⟩ : BufTy).Contents (Elt Ideal)}
  {a2 : (⟨S512x16, .f32⟩ : BufTy).Contents (Elt Ideal)} {a3 : (⟨S16, .f32⟩ : BufTy).Contents (Elt Ideal)}
  {a4 : (⟨S16x40, .f32⟩ : BufTy).Contents (Elt Ideal)} {a5 : (⟨S40, .f32⟩ : BufTy).Contents (Elt Ideal)}
variable (X : Valuation τ sig (Elt Ideal))

/-- Stage 0 (operation 0): the first matrix product. -/
theorem stage0 (h0 : X (Proc.devRef .tc main_arg0) = a0) (h2 : X (Proc.devRef .tc main_arg2) = a2) :
    after (seg 0 1) X (Proc.devRef .tc main_v0) = ReadP.val_main_v0 (F := Ideal) a0 a2 := by
  read_stage
  rw [h0, h2]
  rfl

/-- Stage 1 (operations 1-7): the source and destination index arrays with the self loops appended. -/
theorem stage1 (h1 : X (Proc.devRef .tc main_arg1) = a1) :
    after (seg 1 7) X (Proc.devRef .tc main_v4) = ReadP.val_main_v4 (F := Ideal) a1
    ∧ after (seg 1 7) X (Proc.devRef .tc main_v7) = ReadP.val_main_v7 (F := Ideal) a1
    ∧ after (seg 1 7) X (Proc.devRef .tc main_v0) = X (Proc.devRef .tc main_v0) := by
  refine ⟨?_, ?_, ?_⟩
  · read_stage
    rw [h1]
    rfl
  · read_stage
    rw [h1]
    rfl
  · read_stage
    (try rfl)

/-- Stage 2a (operations 8-18): the degrees, whether each is positive, and their inverse square roots. -/
theorem stage2a (h7 : X (Proc.devRef .tc main_v7) = ReadP.val_main_v7 (F := Ideal) a1) :
    after (seg 8 11) X (Proc.devRef .tc main_v13) = ReadP.val_main_v13 (F := Ideal) a1
    ∧ after (seg 8 11) X (Proc.devRef .tc main_v14) = ReadP.val_main_v14 (F := Ideal) a1
    ∧ after (seg 8 11) X (Proc.devRef .tc main_cst_2) = ReadP.val_main_cst_2 (F := Ideal)
    ∧ after (seg 8 11) X (Proc.devRef .tc main_v0) = X (Proc.devRef .tc main_v0)
    ∧ after (seg 8 11) X (Proc.devRef .tc main_v4) = X (Proc.devRef .tc main_v4)
    ∧ after (seg 8 11) X (Proc.devRef .tc main_v7) = X (Proc.devRef .tc main_v7) := by
  refine ⟨?_, ?_, ?_, ?_, ?_, ?_⟩
  · stage_ops; host_results
    rw [h7]
    rfl
  · stage_ops; host_results
    rw [h7]
    rfl
  · stage_ops; host_results
    (try rfl)
  · stage_ops; host_results
    (try rfl)
  · stage_ops; host_results
    (try rfl)
  · stage_ops; host_results
    (try rfl)

/-- Stage 2b (operations 19-21): zero where the degree is not positive. -/
theorem stage2b (h13 : X (Proc.devRef .tc main_v13) = ReadP.val_main_v13 (F := Ideal) a1)
    (h14 : X (Proc.devRef .tc main_v14) = ReadP.val_main_v14 (F := Ideal) a1)
    (hc : X (Proc.devRef .tc main_cst_2) = ReadP.val_main_cst_2 (F := Ideal)) :
    after (seg 19 3) X (Proc.devRef .tc main_v15) = ReadP.val_main_v15 (F := Ideal) a1
    ∧ after (seg 19 3) X (Proc.devRef .tc main_v0) = X (Proc.devRef .tc main_v0)
    ∧ after (seg 19 3) X (Proc.devRef .tc main_v4) = X (Proc.devRef .tc main_v4)
    ∧ after (seg 19 3) X (Proc.devRef .tc main_v7) = X (Proc.devRef .tc main_v7) := by
  refine ⟨?_, ?_, ?_, ?_⟩
  · read_stage
    rw [h13, h14, hc]
    rfl
  · stage_ops; host_results
    (try rfl)
  · stage_ops; host_results
    (try rfl)
  · stage_ops; host_results
    (try rfl)

/-- Stage 3 (operations 22-40): the per-edge normalisation, the two end points' factors multiplied. -/
theorem stage3 (h4 : X (Proc.devRef .tc main_v4) = ReadP.val_main_v4 (F := Ideal) a1)
    (h7 : X (Proc.devRef .tc main_v7) = ReadP.val_main_v7 (F := Ideal) a1)
    (h15 : X (Proc.devRef .tc main_v15) = ReadP.val_main_v15 (F := Ideal) a1) :
    after (seg 22 19) X (Proc.devRef .tc main_v30) = ReadP.val_main_v30 (F := Ideal) a1
    ∧ after (seg 22 19) X (Proc.devRef .tc main_v0) = X (Proc.devRef .tc main_v0)
    ∧ after (seg 22 19) X (Proc.devRef .tc main_v4) = X (Proc.devRef .tc main_v4)
    ∧ after (seg 22 19) X (Proc.devRef .tc main_v7) = X (Proc.devRef .tc main_v7) := by
  refine ⟨?_, ?_, ?_, ?_⟩
  · read_stage
    rw [h4, h7, h15]
    rfl
  · read_stage
    (try rfl)
  · read_stage
    (try rfl)
  · read_stage
    (try rfl)

/-- Stage 4 (operations 41-56): the first aggregation, the normalised source rows summed into their destinations. -/
theorem stage4 (h0 : X (Proc.devRef .tc main_v0) = ReadP.val_main_v0 (F := Ideal) a0 a2)
    (h4 : X (Proc.devRef .tc main_v4) = ReadP.val_main_v4 (F := Ideal) a1)
    (h7 : X (Proc.devRef .tc main_v7) = ReadP.val_main_v7 (F := Ideal) a1)
    (h30 : X (Proc.devRef .tc main_v30) = ReadP.val_main_v30 (F := Ideal) a1) :
    after (seg 41 16) X (Proc.devRef .tc main_v43) = ReadP.val_main_v43 (F := Ideal) a0 a1 a2 := by
  read_stage
  rw [h0, h4, h7, h30]
  rfl

/-- Stage 5 (operations 57-62): the first bias and the positive part. -/
theorem stage5 (h3 : X (Proc.devRef .tc main_arg3) = a3)
    (h43 : X (Proc.devRef .tc main_v43) = ReadP.val_main_v43 (F := Ideal) a0 a1 a2) :
    after (seg 57 6) X (Proc.devRef .tc main_v47) = ReadP.val_main_v47 (F := Ideal) a0 a1 a2 a3 := by
  read_stage
  rw [h3, h43]
  rfl

/-- Stage 6 (operation 63): the second matrix product. -/
theorem stage6 (h4 : X (Proc.devRef .tc main_arg4) = a4)
    (h47 : X (Proc.devRef .tc main_v47) = ReadP.val_main_v47 (F := Ideal) a0 a1 a2 a3) :
    after (seg 63 1) X (Proc.devRef .tc main_v48) = ReadP.val_main_v48 (F := Ideal) a0 a1 a2 a3 a4 := by
  read_stage
  rw [h4, h47]
  rfl

/-- Stage 7 (operations 64-70): the source and destination index arrays again. -/
theorem stage7 (h1 : X (Proc.devRef .tc main_arg1) = a1) :
    after (seg 64 7) X (Proc.devRef .tc main_v52) = ReadP.val_main_v52 (F := Ideal) a1
    ∧ after (seg 64 7) X (Proc.devRef .tc main_v55) = ReadP.val_main_v55 (F := Ideal) a1
    ∧ after (seg 64 7) X (Proc.devRef .tc main_v48) = X (Proc.devRef .tc main_v48) := by
  refine ⟨?_, ?_, ?_⟩
  · read_stage
    rw [h1]
    rfl
  · read_stage
    rw [h1]
    rfl
  · read_stage
    (try rfl)

/-- Stage 8a (operations 71-81): the degrees, whether each is positive, and their inverse square roots, again. -/
theorem stage8a (h55 : X (Proc.devRef .tc main_v55) = ReadP.val_main_v55 (F := Ideal) a1) :
    after (seg 71 11) X (Proc.devRef .tc main_v61) = ReadP.val_main_v61 (F := Ideal) a1
    ∧ after (seg 71 11) X (Proc.devRef .tc main_v62) = ReadP.val_main_v62 (F := Ideal) a1
    ∧ after (seg 71 11) X (Proc.devRef .tc main_cst_12) = ReadP.val_main_cst_12 (F := Ideal)
    ∧ after (seg 71 11) X (Proc.devRef .tc main_v48) = X (Proc.devRef .tc main_v48)
    ∧ after (seg 71 11) X (Proc.devRef .tc main_v52) = X (Proc.devRef .tc main_v52)
    ∧ after (seg 71 11) X (Proc.devRef .tc main_v55) = X (Proc.devRef .tc main_v55) := by
  refine ⟨?_, ?_, ?_, ?_, ?_, ?_⟩
  · stage_ops; host_results
    rw [h55]
    rfl
  · stage_ops; host_results
    rw [h55]
    rfl
  · stage_ops; host_results
    (try rfl)
  · stage_ops; host_results
    (try rfl)
  · stage_ops; host_results
    (try rfl)
  · stage_ops; host_results
    (try rfl)

/-- Stage 8b (operations 82-84): zero where the degree is not positive, again. -/
theorem stage8b (h61 : X (Proc.devRef .tc main_v61) = ReadP.val_main_v61 (F := Ideal) a1)
    (h62 : X (Proc.devRef .tc main_v62) = ReadP.val_main_v62 (F := Ideal) a1)
    (hc : X (Proc.devRef .tc main_cst_12) = ReadP.val_main_cst_12 (F := Ideal)) :
    after (seg 82 3) X (Proc.devRef .tc main_v63) = ReadP.val_main_v63 (F := Ideal) a1
    ∧ after (seg 82 3) X (Proc.devRef .tc main_v48) = X (Proc.devRef .tc main_v48)
    ∧ after (seg 82 3) X (Proc.devRef .tc main_v52) = X (Proc.devRef .tc main_v52)
    ∧ after (seg 82 3) X (Proc.devRef .tc main_v55) = X (Proc.devRef .tc main_v55) := by
  refine ⟨?_, ?_, ?_, ?_⟩
  · read_stage
    rw [h61, h62, hc]
    rfl
  · stage_ops; host_results
    (try rfl)
  · stage_ops; host_results
    (try rfl)
  · stage_ops; host_results
    (try rfl)

/-- Stage 9 (operations 85-103): the per-edge normalisation again. -/
theorem stage9 (h52 : X (Proc.devRef .tc main_v52) = ReadP.val_main_v52 (F := Ideal) a1)
    (h55 : X (Proc.devRef .tc main_v55) = ReadP.val_main_v55 (F := Ideal) a1)
    (h63 : X (Proc.devRef .tc main_v63) = ReadP.val_main_v63 (F := Ideal) a1) :
    after (seg 85 19) X (Proc.devRef .tc main_v78) = ReadP.val_main_v78 (F := Ideal) a1
    ∧ after (seg 85 19) X (Proc.devRef .tc main_v48) = X (Proc.devRef .tc main_v48)
    ∧ after (seg 85 19) X (Proc.devRef .tc main_v52) = X (Proc.devRef .tc main_v52)
    ∧ after (seg 85 19) X (Proc.devRef .tc main_v55) = X (Proc.devRef .tc main_v55) := by
  refine ⟨?_, ?_, ?_, ?_⟩
  · read_stage
    rw [h52, h55, h63]
    rfl
  · read_stage
    (try rfl)
  · read_stage
    (try rfl)
  · read_stage
    (try rfl)

/-- Stage 10 (operations 104-119): the second aggregation. -/
theorem stage10 (h48 : X (Proc.devRef .tc main_v48) = ReadP.val_main_v48 (F := Ideal) a0 a1 a2 a3 a4)
    (h52 : X (Proc.devRef .tc main_v52) = ReadP.val_main_v52 (F := Ideal) a1)
    (h55 : X (Proc.devRef .tc main_v55) = ReadP.val_main_v55 (F := Ideal) a1)
    (h78 : X (Proc.devRef .tc main_v78) = ReadP.val_main_v78 (F := Ideal) a1) :
    after (seg 104 16) X (Proc.devRef .tc main_v91) = ReadP.val_main_v91 (F := Ideal) a0 a1 a2 a3 a4 := by
  read_stage
  rw [h48, h52, h55, h78]
  rfl

/-- Stage 11 (operations 120-122): the second bias. -/
theorem stage11 (h5 : X (Proc.devRef .tc main_arg5) = a5)
    (h91 : X (Proc.devRef .tc main_v91) = ReadP.val_main_v91 (F := Ideal) a0 a1 a2 a3 a4) :
    after (seg 120 3) X (Proc.devRef .tc main_v94) = ReadP.val_main_v94 (F := Ideal) a0 a1 a2 a3 a4 a5 := by
  read_stage
  rw [h5, h91]
  rfl

/-- Stage 12a (operations 123-124): each row's maximum, from −∞. -/
theorem stage12a (h94 : X (Proc.devRef .tc main_v94) = ReadP.val_main_v94 (F := Ideal) a0 a1 a2 a3 a4 a5) :
    after (seg 123 2) X (Proc.devRef .tc main_call3_v0) = ReadP.val_main_call3_v0 (F := Ideal) a0 a1 a2 a3 a4 a5
    ∧ after (seg 123 2) X (Proc.devRef .tc main_v94) = X (Proc.devRef .tc main_v94) := by
  refine ⟨?_, ?_⟩
  · read_stage
    rw [h94]
    rfl
  · stage_ops; host_results
    (try rfl)

/-- Stage 12b (operations 125-127): the maximum once more against the −∞ splat. -/
theorem stage12b (h0 : X (Proc.devRef .tc main_call3_v0) = ReadP.val_main_call3_v0 (F := Ideal) a0 a1 a2 a3 a4 a5) :
    after (seg 125 3) X (Proc.devRef .tc main_call3_v2) = ReadP.val_main_call3_v2 (F := Ideal) a0 a1 a2 a3 a4 a5
    ∧ after (seg 125 3) X (Proc.devRef .tc main_v94) = X (Proc.devRef .tc main_v94) := by
  refine ⟨?_, ?_⟩
  · read_stage
    rw [h0]
    rfl
  · stage_ops; host_results
    (try rfl)

/-- Stage 12c (operations 128-130): the logits less each row's maximum. -/
theorem stage12c (h2 : X (Proc.devRef .tc main_call3_v2) = ReadP.val_main_call3_v2 (F := Ideal) a0 a1 a2 a3 a4 a5)
    (h94 : X (Proc.devRef .tc main_v94) = ReadP.val_main_v94 (F := Ideal) a0 a1 a2 a3 a4 a5) :
    after (seg 128 3) X (Proc.devRef .tc main_call3_v5) = ReadP.val_main_call3_v5 (F := Ideal) a0 a1 a2 a3 a4 a5 := by
  read_stage
  rw [h2, h94]
  rfl

/-- Stage 13 (operations 131-137): less the logarithm of each row's sum of exponentials. -/
theorem stage13 (h5 : X (Proc.devRef .tc main_call3_v5) = ReadP.val_main_call3_v5 (F := Ideal) a0 a1 a2 a3 a4 a5) :
    after (seg 131 7) X (Proc.devRef .tc main_v95) = ReadP.val_main_v95 (F := Ideal) a0 a1 a2 a3 a4 a5 := by
  read_stage
  rw [h5]
  rfl

end Stages

/-! ## The stages chained from the launch contents -/

/-! ## No operation writes an argument -/

theorem arg0_kept : ∀ op ∈ (ValueP.ops (F := Ideal)), Proc.devRef (τ := τ) .tc main_arg0 ∉ op.writes :=
  List.forall_iff_forall_mem.mp (by
    simp only [ValueP.ops, List.Forall, nullary_writes, unary_writes, binary_writes, ternary_writes, reshape_writes, Finset.mem_singleton]
    repeat' apply And.intro
    all_goals exact devRef_ne_of_ne (by decide))
theorem arg1_kept : ∀ op ∈ (ValueP.ops (F := Ideal)), Proc.devRef (τ := τ) .tc main_arg1 ∉ op.writes :=
  List.forall_iff_forall_mem.mp (by
    simp only [ValueP.ops, List.Forall, nullary_writes, unary_writes, binary_writes, ternary_writes, reshape_writes, Finset.mem_singleton]
    repeat' apply And.intro
    all_goals exact devRef_ne_of_ne (by decide))
theorem arg2_kept : ∀ op ∈ (ValueP.ops (F := Ideal)), Proc.devRef (τ := τ) .tc main_arg2 ∉ op.writes :=
  List.forall_iff_forall_mem.mp (by
    simp only [ValueP.ops, List.Forall, nullary_writes, unary_writes, binary_writes, ternary_writes, reshape_writes, Finset.mem_singleton]
    repeat' apply And.intro
    all_goals exact devRef_ne_of_ne (by decide))
theorem arg3_kept : ∀ op ∈ (ValueP.ops (F := Ideal)), Proc.devRef (τ := τ) .tc main_arg3 ∉ op.writes :=
  List.forall_iff_forall_mem.mp (by
    simp only [ValueP.ops, List.Forall, nullary_writes, unary_writes, binary_writes, ternary_writes, reshape_writes, Finset.mem_singleton]
    repeat' apply And.intro
    all_goals exact devRef_ne_of_ne (by decide))
theorem arg4_kept : ∀ op ∈ (ValueP.ops (F := Ideal)), Proc.devRef (τ := τ) .tc main_arg4 ∉ op.writes :=
  List.forall_iff_forall_mem.mp (by
    simp only [ValueP.ops, List.Forall, nullary_writes, unary_writes, binary_writes, ternary_writes, reshape_writes, Finset.mem_singleton]
    repeat' apply And.intro
    all_goals exact devRef_ne_of_ne (by decide))
theorem arg5_kept : ∀ op ∈ (ValueP.ops (F := Ideal)), Proc.devRef (τ := τ) .tc main_arg5 ∉ op.writes :=
  List.forall_iff_forall_mem.mp (by
    simp only [ValueP.ops, List.Forall, nullary_writes, unary_writes, binary_writes, ternary_writes, reshape_writes, Finset.mem_singleton]
    repeat' apply And.intro
    all_goals exact devRef_ne_of_ne (by decide))

/-- A buffer no operation of the reference writes keeps its contents through any stage. -/
theorem seg_keep {r : Ref sig .tc} (hr : ∀ op ∈ (ValueP.ops (F := Ideal)), Proc.devRef (τ := τ) .tc r ∉ op.writes) (i n : Nat)
    (X : Valuation τ sig (Elt Ideal)) : after (seg i n) X (Proc.devRef .tc r) = X (Proc.devRef .tc r) :=
  after_of_forall_not_mem _ _ fun op hop => hr op (List.mem_of_mem_drop (List.mem_of_mem_take hop))

/-- The six arguments' buffers at given contents. -/
def ArgsAt (a0 : (⟨S100000x512, .f32⟩ : BufTy).Contents (Elt Ideal)) (a1 : (⟨S2x3200000, .i32⟩ : BufTy).Contents (Elt Ideal))
    (a2 : (⟨S512x16, .f32⟩ : BufTy).Contents (Elt Ideal)) (a3 : (⟨S16, .f32⟩ : BufTy).Contents (Elt Ideal))
    (a4 : (⟨S16x40, .f32⟩ : BufTy).Contents (Elt Ideal)) (a5 : (⟨S40, .f32⟩ : BufTy).Contents (Elt Ideal))
    (X : Valuation τ sig (Elt Ideal)) : Prop :=
  X (Proc.devRef .tc main_arg0) = a0 ∧ X (Proc.devRef .tc main_arg1) = a1 ∧ X (Proc.devRef .tc main_arg2) = a2
    ∧ X (Proc.devRef .tc main_arg3) = a3 ∧ X (Proc.devRef .tc main_arg4) = a4 ∧ X (Proc.devRef .tc main_arg5) = a5

/-- Every stage leaves the arguments' buffers as they were. -/
theorem ArgsAt.seg {a0 a1 a2 a3 a4 a5} {X : Valuation τ sig (Elt Ideal)} (h : ArgsAt a0 a1 a2 a3 a4 a5 X) (i n : Nat) :
    ArgsAt a0 a1 a2 a3 a4 a5 (after (seg i n) X) :=
  ⟨(seg_keep arg0_kept i n X).trans h.1, (seg_keep arg1_kept i n X).trans h.2.1, (seg_keep arg2_kept i n X).trans h.2.2.1,
    (seg_keep arg3_kept i n X).trans h.2.2.2.1, (seg_keep arg4_kept i n X).trans h.2.2.2.2.1, (seg_keep arg5_kept i n X).trans h.2.2.2.2.2⟩

/-- The operations from the i-th on: the next n, then the rest. -/
theorem after_seg (i n j : Nat) (hj : i + n = j) (X : Valuation τ sig (Elt Ideal)) :
    after ((ValueP.ops (F := Ideal)).drop i) X = after ((ValueP.ops (F := Ideal)).drop j) (after (seg i n) X) := by
  subst hj
  rw [after_take_drop ((ValueP.ops (F := Ideal)).drop i) n X, List.drop_drop]

/-- The reference's 138 operations run as its eighteen stages in order. -/
theorem after_ops (X : Valuation τ sig (Elt Ideal)) : after (ValueP.ops (F := Ideal)) X =
    after (seg 131 7) (after (seg 128 3) (after (seg 125 3) (after (seg 123 2) (after (seg 120 3) (after (seg 104 16)
      (after (seg 85 19) (after (seg 82 3) (after (seg 71 11) (after (seg 64 7) (after (seg 63 1) (after (seg 57 6)
        (after (seg 41 16) (after (seg 22 19) (after (seg 19 3) (after (seg 8 11) (after (seg 1 7)
          (after (seg 0 1) X))))))))))))))))) := by
  rw [show after (ValueP.ops (F := Ideal)) X = after ((ValueP.ops (F := Ideal)).drop 0) X from rfl,
    after_seg 0 1 1 rfl, after_seg 1 7 8 rfl, after_seg 8 11 19 rfl, after_seg 19 3 22 rfl, after_seg 22 19 41 rfl,
    after_seg 41 16 57 rfl, after_seg 57 6 63 rfl, after_seg 63 1 64 rfl, after_seg 64 7 71 rfl, after_seg 71 11 82 rfl,
    after_seg 82 3 85 rfl, after_seg 85 19 104 rfl, after_seg 104 16 120 rfl, after_seg 120 3 123 rfl, after_seg 123 2 125 rfl,
    after_seg 125 3 128 rfl, after_seg 128 3 131 rfl, after_seg 131 7 138 rfl]
  rfl

/-- THE RETURNED ARRAY: after the 138 operations, from the launch contents, it is the reference's value function of
    the six arguments' launch contents. -/
theorem res_main_v95 (m : (ℓ : Loc nD τ sig) → Buf (Elt Ideal) ℓ) (c : Dev nD) :
    after (ValueP.ops (F := Ideal)) (launchContents m c) (Proc.devRef .tc main_v95)
      = ReadP.val_main_v95 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [after_ops]
  have A : ArgsAt (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) (launchContents m c) :=
    ⟨rfl, rfl, rfl, rfl, rfl, rfl⟩
  generalize launchContents m c = X0 at A ⊢
  -- stage 0
  have f0 := stage0 X0 A.1 A.2.2.1
  have A := A.seg 0 1
  generalize after (seg 0 1) X0 = X1 at f0 A ⊢
  -- stage 1
  obtain ⟨f4, f7, k0⟩ := stage1 X1 A.2.1
  have f0 := k0.trans f0
  have A := A.seg 1 7
  generalize after (seg 1 7) X1 = X2 at f0 f4 f7 A ⊢
  -- stage 2a
  obtain ⟨f13, f14, fc, k0, k4, k7⟩ := stage2a X2 f7
  have f0 := k0.trans f0
  have f4 := k4.trans f4
  have f7 := k7.trans f7
  have A := A.seg 8 11
  generalize after (seg 8 11) X2 = X3 at f0 f4 f7 f13 f14 fc A ⊢
  -- stage 2b
  obtain ⟨f15, k0, k4, k7⟩ := stage2b X3 f13 f14 fc
  have f0 := k0.trans f0
  have f4 := k4.trans f4
  have f7 := k7.trans f7
  have A := A.seg 19 3
  generalize after (seg 19 3) X3 = X4 at f0 f4 f7 f15 A ⊢
  -- stage 3
  obtain ⟨f30, k0, k4, k7⟩ := stage3 X4 f4 f7 f15
  have f0 := k0.trans f0
  have f4 := k4.trans f4
  have f7 := k7.trans f7
  have A := A.seg 22 19
  generalize after (seg 22 19) X4 = X5 at f0 f4 f7 f30 A ⊢
  -- stage 4
  have f43 := stage4 X5 f0 f4 f7 f30
  have A := A.seg 41 16
  generalize after (seg 41 16) X5 = X6 at f43 A ⊢
  -- stage 5
  have f47 := stage5 X6 A.2.2.2.1 f43
  have A := A.seg 57 6
  generalize after (seg 57 6) X6 = X7 at f47 A ⊢
  -- stage 6
  have f48 := stage6 X7 A.2.2.2.2.1 f47
  have A := A.seg 63 1
  generalize after (seg 63 1) X7 = X8 at f48 A ⊢
  -- stage 7
  obtain ⟨f52, f55, k48⟩ := stage7 X8 A.2.1
  have f48 := k48.trans f48
  have A := A.seg 64 7
  generalize after (seg 64 7) X8 = X9 at f48 f52 f55 A ⊢
  -- stage 8a
  obtain ⟨f61, f62, fc, k48, k52, k55⟩ := stage8a X9 f55
  have f48 := k48.trans f48
  have f52 := k52.trans f52
  have f55 := k55.trans f55
  have A := A.seg 71 11
  generalize after (seg 71 11) X9 = X10 at f48 f52 f55 f61 f62 fc A ⊢
  -- stage 8b
  obtain ⟨f63, k48, k52, k55⟩ := stage8b X10 f61 f62 fc
  have f48 := k48.trans f48
  have f52 := k52.trans f52
  have f55 := k55.trans f55
  have A := A.seg 82 3
  generalize after (seg 82 3) X10 = X11 at f48 f52 f55 f63 A ⊢
  -- stage 9
  obtain ⟨f78, k48, k52, k55⟩ := stage9 X11 f52 f55 f63
  have f48 := k48.trans f48
  have f52 := k52.trans f52
  have f55 := k55.trans f55
  have A := A.seg 85 19
  generalize after (seg 85 19) X11 = X12 at f48 f52 f55 f78 A ⊢
  -- stage 10
  have f91 := stage10 X12 f48 f52 f55 f78
  have A := A.seg 104 16
  generalize after (seg 104 16) X12 = X13 at f91 A ⊢
  -- stage 11
  have f94 := stage11 X13 A.2.2.2.2.2 f91
  generalize after (seg 120 3) X13 = X14 at f94 ⊢
  -- stage 12a
  obtain ⟨g0, k94⟩ := stage12a X14 f94
  have f94 := k94.trans f94
  generalize after (seg 123 2) X14 = X15 at f94 g0 ⊢
  -- stage 12b
  obtain ⟨g2, k94⟩ := stage12b X15 g0
  have f94 := k94.trans f94
  generalize after (seg 125 3) X15 = X16 at f94 g2 ⊢
  -- stage 12c
  have g5 := stage12c X16 g2 f94
  generalize after (seg 128 3) X16 = X17 at g5 ⊢
  -- stage 13
  exact stage13 X17 g5

/-- An argument's buffer after the 138 operations is as launched. -/
theorem arg_end {r : Ref sig .tc} (hr : ∀ op ∈ (ValueP.ops (F := Ideal)), Proc.devRef (τ := τ) .tc r ∉ op.writes)
    (m : (ℓ : Loc nD τ sig) → Buf (Elt Ideal) ℓ) (c : Dev nD) :
    after (ValueP.ops (F := Ideal)) (launchContents m c) (Proc.devRef .tc r) = m ((c.tc : Thread nD τ).loc r) :=
  after_of_forall_not_mem _ _ hr

/-- THE REFERENCE'S RUN: every weakly fair execution terminates with the returned array at the reference's value
    function of the arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v95) = ReadP.val_main_v95 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (res_main_v95 m c),
      (h c main_arg0).trans (arg_end arg0_kept m c), (h c main_arg1).trans (arg_end arg1_kept m c),
      (h c main_arg2).trans (arg_end arg2_kept m c), (h c main_arg3).trans (arg_end arg3_kept m c),
      (h c main_arg4).trans (arg_end arg4_kept m c), (h c main_arg5).trans (arg_end arg5_kept m c)⟩)
    (run_seq ValueP.scopedRefs_eq ValueP.scopedSems_eq defs main (fun _ => ValueP.ops) ValueP.main_eq (fun _ => ValueP.ops_sub) m ρ)

end Cert.ReferenceIdeal.Hand

end
-- ==== Proof.lean ====
/-
  A two-layer graph convolution with a log-softmax head, the kernel program against its host reference, on the extended reals.

  Both programs compute, from node features x [100000, 512], an edge list [2, 3200000] and two weight/bias pairs,
      out = log_softmax ( Â · relu ( Â · (x · W1) + b1 ) · W2 + b2 ),
  where Â is the symmetrically normalised adjacency with self loops, applied as gather · scale · scatter-add over the
  3300000 edges.  The sparse part (degrees, their inverse square roots, gathers and scatter-adds) is host operations in
  both programs, the same ones applied to the same arrays.  The kernel program runs the four dense parts as pipelined
  regions over twenty row blocks of 5000 nodes: the two matrix products (operands rounded to bf16, which is the identity
  on the extended reals, accumulated into a zero block), bias + relu, and bias + log-softmax along the forty classes.
  Row blocks tile the node axis, every entry of a block depends only on its own row of the left operand (and on the whole
  small right operand), so each region's output array is the host's whole-array operation of its input arrays:
  a matrix product is the host's dot_general (the same sum over the contracted axis), max (a + b) 0 is the host's
  maximum against the zero splat, and z − max z − log Σ exp (z − max z) is the host's log_softmax row by row
  (the maximum from −∞ once more is itself).  No law of arithmetic beyond 0 + s = s and max ⊥ s = s is used, so the
  precondition's finiteness is never opened.  The idealisation rewrote nothing, so its preservation claim is trivial.
-/
import proofs.«151575_j70789650972705_1_alg».proof.Defs
import proofs.«151575_j70789650972705_1_alg».proof.Proof.Gen.Kernel
import proofs.«151575_j70789650972705_1_alg».proof.Proof.Gen.Kernel.Skeleton
import proofs.«151575_j70789650972705_1_alg».proof.Proof.Gen.Kernel.Launch
import proofs.«151575_j70789650972705_1_alg».proof.Proof.Gen.Kernel.Points
import proofs.«151575_j70789650972705_1_alg».proof.Proof.Gen.Kernel.Frame
import proofs.«151575_j70789650972705_1_alg».proof.Proof.Gen.KernelIdeal
import proofs.«151575_j70789650972705_1_alg».proof.Proof.Gen.KernelIdeal.Skeleton
import proofs.«151575_j70789650972705_1_alg».proof.Proof.Gen.KernelIdeal.Launch
import proofs.«151575_j70789650972705_1_alg».proof.Proof.Gen.KernelIdeal.Points
import proofs.«151575_j70789650972705_1_alg».proof.Proof.Gen.KernelIdeal.Frame
import proofs.«151575_j70789650972705_1_alg».proof.Proof.Gen.ReferenceIdeal
import proofs.«151575_j70789650972705_1_alg».proof.Proof.Gen.Pre_finite_inputs
import proofs.«151575_j70789650972705_1_alg».proof.Proof.KernelRun
import proofs.«151575_j70789650972705_1_alg».proof.Proof.Bridge
import proofs.«151575_j70789650972705_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Hand.run m ρ)

/-- The idealisation rewrote no operation. -/
theorem preserves : Cert.preserves_Kernel_KernelIdeal := trivial

/-- From memories agreeing on the six arguments both programs end with the same result array: the reference's
    composed function of the arguments, which the kernel program's last region leaves in its output array. -/
theorem algebraic : Cert.algebraic_KernelIdeal_ReferenceIdeal := by
  intro m ρ m' ρ' _ hagree
  refine ⟨fun c => Cert.ReferenceIdeal.ReadP.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun _ h c => ⟨(h c).1.trans (Cert.KernelIdeal.Hand.result_eq m ρ c), (h c).2⟩)
      (Cert.KernelIdeal.Hand.run_result m ρ)
  · refine (θ_run Cert.ReferenceIdeal.defs _ _).mono (fun _ h c => ⟨(h c).1.trans ?_, (h c).2⟩) (Cert.ReferenceIdeal.Hand.run m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
